-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x160 : Shape := ⟨2, ![100000, 160]⟩
abbrev S100000 : Shape := ⟨1, ![100000]⟩
abbrev S32x24 : Shape := ⟨2, ![32, 24]⟩
abbrev S24 : Shape := ⟨1, ![24]⟩
abbrev S131x96 : Shape := ⟨2, ![131, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x160 : S_.BroadcastsInDim S100000x160 (![] : Fin 0 → Fin S100000x160.rank)
  reducesTo_S100000x160_S_d0_1 : S100000x160.ReducesTo [0, 1] S_
  bcast_S_S32x24 : S_.BroadcastsInDim S32x24 (![] : Fin 0 → Fin S32x24.rank)
  reducesTo_S32x24_S_d0_1 : S32x24.ReducesTo [0, 1] S_
  bcast_S_S24 : S_.BroadcastsInDim S24 (![] : Fin 0 → Fin S24.rank)
  reducesTo_S24_S_d0 : S24.ReducesTo [0] S_
  bcast_S_S131x96 : S_.BroadcastsInDim S131x96 (![] : Fin 0 → Fin S131x96.rank)
  reducesTo_S131x96_S_d0_1 : S131x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S131x96 .f32) (main_arg6 : FVec F S96 .f32) (main_arg7 : FVec F S96x64 .f32) (main_arg8 : FVec F S64 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S131x96 .f32 := Host.absf main_arg5
  let main_cst_6 : FVec F S_ .f32 := constant S_ .f32 0x7F800000#32
  let main_v20 : FVec F S131x96 .f32 := broadcastInDim S131x96 ![] bcast_S_S131x96 main_cst_6
  let main_v21 : IVec S131x96 1 := cmpf .olt main_v19 main_v20
  let main_c_7 : IVec S_ 1 := constantI S_ 1 1#1
  let main_v22 : IVec S_ 1 := (fun x v => Host.reduce IntOp.andi x v reducesTo_S131x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x64 .f32 := Host.absf main_arg7
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg8 main_v33

def fn {F : FTy → Type} [FloatOps F] (main_arg0 : FVec F S100000x3 .f32) (main_arg1 : FVec F S100000x160 .f32) (main_arg2 : IVec S100000 32) (main_arg3 : FVec F S32x24 .f32) (main_arg4 : FVec F S24 .f32) (main_arg5 : FVec F S131x96 .f32) (main_arg6 : FVec F S96 .f32) (main_arg7 : FVec F S96x64 .f32) (main_arg8 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x160 .f32 := Host.absf main_arg1
  let main_cst_0 : FVec F S_ .f32 := constant S_ .f32 0x7F800000#32
  let main_v5 : FVec F S100000x160 .f32 := broadcastInDim S100000x160 ![] bcast_S_S100000x160 main_cst_0
  let main_v6 : IVec S100000x160 1 := cmpf .olt main_v4 main_v5
  let main_c_1 : IVec S_ 1 := constantI S_ 1 1#1
  let main_v7 : IVec S_ 1 := (fun x v => Host.reduce IntOp.andi x v reducesTo_S100000x160_S_d0_1 h_S_) main_v6 main_c_1
  let main_v8 : IVec S_ 1 := andi main_v3 main_v7
  let main_v9 : FVec F S32x24 .f32 := Host.absf main_arg3
  let main_cst_2 : FVec F S_ .f32 := constant S_ .f32 0x7F800000#32
  let main_v10 : FVec F S32x24 .f32 := broadcastInDim S32x24 ![] bcast_S_S32x24 main_cst_2
  let main_v11 : IVec S32x24 1 := cmpf .olt main_v9 main_v10
  let main_c_3 : IVec S_ 1 := constantI S_ 1 1#1
  let main_v12 : IVec S_ 1 := (fun x v => Host.reduce IntOp.andi x v reducesTo_S32x24_S_d0_1 h_S_) main_v11 main_c_3
  let main_v13 : IVec S_ 1 := andi main_v8 main_v12
  let main_v14 : FVec F S24 .f32 := Host.absf main_arg4
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg5 main_arg6 main_arg7 main_arg8 main_v13 main_v16
-- ==== Kernel.lean ====
abbrev S100000x3 : Shape := ⟨2, ![100000, 3]⟩
abbrev S100000x160 : Shape := ⟨2, ![100000, 160]⟩
abbrev S100000 : Shape := ⟨1, ![100000]⟩
abbrev S32x24 : Shape := ⟨2, ![32, 24]⟩
abbrev S24 : Shape := ⟨1, ![24]⟩
abbrev S131x96 : Shape := ⟨2, ![131, 96]⟩
abbrev S96 : Shape := ⟨1, ![96]⟩
abbrev S96x64 : Shape := ⟨2, ![96, 64]⟩
abbrev S64 : Shape := ⟨1, ![64]⟩
abbrev S3x96 : Shape := ⟨2, ![3, 96]⟩
abbrev S128x96 : Shape := ⟨2, ![128, 96]⟩
abbrev S100000x24 : Shape := ⟨2, ![100000, 24]⟩
abbrev S100000x512 : Shape := ⟨2, ![100000, 512]⟩
abbrev S5000x160 : Shape := ⟨2, ![5000, 160]⟩
abbrev S5000x3 : Shape := ⟨2, ![5000, 3]⟩
abbrev S5000x24 : Shape := ⟨2, ![5000, 24]⟩
abbrev S5000x512 : Shape := ⟨2, ![5000, 512]⟩
abbrev S5000x32 : Shape := ⟨2, ![5000, 32]⟩
abbrev S5000x128 : Shape := ⟨2, ![5000, 128]⟩
abbrev S1x24 : Shape := ⟨2, ![1, 24]⟩
abbrev S5000x96 : Shape := ⟨2, ![5000, 96]⟩
abbrev S1x96 : Shape := ⟨2, ![1, 96]⟩
abbrev S5000x64 : Shape := ⟨2, ![5000, 64]⟩
abbrev S1x64 : Shape := ⟨2, ![1, 64]⟩
abbrev S800000x3 : Shape := ⟨2, ![800000, 3]⟩
abbrev S800000x64 : Shape := ⟨2, ![800000, 64]⟩
abbrev S100000x8 : Shape := ⟨2, ![100000, 8]⟩
abbrev S800000 : Shape := ⟨1, ![800000]⟩

abbrev nBuf : Space → Nat
  | .hbm => 17
  | .vmem => 15
  | .smem => 0
  | _ => 0

abbrev bufTy : (tb : Table) → Fin (tcTables nBuf tb) → BufTy
  | .hbm, ⟨0, _⟩ => ⟨S100000x3, .f32⟩
  | .hbm, ⟨1, _⟩ => ⟨S100000x160, .f32⟩
  | .hbm, ⟨2, _⟩ => ⟨S100000, .i32⟩
  | .hbm, ⟨3, _⟩ => ⟨S32x24, .f32⟩
  | .hbm, ⟨4, _⟩ => ⟨S24, .f32⟩
  | .hbm, ⟨5, _⟩ => ⟨S131x96, .f32⟩
  | .hbm, ⟨6, _⟩ => ⟨S96, .f32⟩
  | .hbm, ⟨7, _⟩ => ⟨S96x64, .f32⟩
  | .hbm, ⟨8, _⟩ => ⟨S64, .f32⟩
  | .hbm, ⟨9, _⟩ => ⟨S3x96, .f32⟩
  | .hbm, ⟨10, _⟩ => ⟨S128x96, .f32⟩
  | .hbm, ⟨11, _⟩ => ⟨S100000x24, .f32⟩
  | .hbm, ⟨12, _⟩ => ⟨S100000x512, .f32⟩
  | .hbm, ⟨13, _⟩ => ⟨S800000x3, .f32⟩
  | .hbm, ⟨14, _⟩ => ⟨S800000x64, .f32⟩
  | .hbm, ⟨15, _⟩ => ⟨S100000x8, .i32⟩
  | .hbm, ⟨16, _⟩ => ⟨S800000, .i32⟩
  | .local _ .vmem, ⟨0, _⟩ => ⟨S5000x160, .f32⟩
  | .local _ .vmem, ⟨1, _⟩ => ⟨S5000x160, .f32⟩
  | .local _ .vmem, ⟨2, _⟩ => ⟨S5000x3, .f32⟩
  | .local _ .vmem, ⟨3, _⟩ => ⟨S5000x3, .f32⟩
  | .local _ .vmem, ⟨4, _⟩ => ⟨S32x24, .f32⟩
  | .local _ .vmem, ⟨5, _⟩ => ⟨S24, .f32⟩
  | .local _ .vmem, ⟨6, _⟩ => ⟨S3x96, .f32⟩
  | .local _ .vmem, ⟨7, _⟩ => ⟨S128x96, .f32⟩
  | .local _ .vmem, ⟨8, _⟩ => ⟨S96, .f32⟩
  | .local _ .vmem, ⟨9, _⟩ => ⟨S96x64, .f32⟩
  | .local _ .vmem, ⟨10, _⟩ => ⟨S64, .f32⟩
  | .local _ .vmem, ⟨11, _⟩ => ⟨S5000x24, .f32⟩
  | .local _ .vmem, ⟨12, _⟩ => ⟨S5000x24, .f32⟩
  | .local _ .vmem, ⟨13, _⟩ => ⟨S5000x512, .f32⟩
  | .local _ .vmem, ⟨14, _⟩ => ⟨S5000x512, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x24 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S131x96_S3x96_0_0 : S131x96.Slices ![0, 0] S3x96
  slices_S131x96_S128x96_3_0 : S131x96.Slices ![3, 0] S128x96
  inb_S5000x160_S5000x160_0_0 : ∀ a, (![0, 0] : Fin 2 → Nat) a + S5000x160.size a ≤ S5000x160.size a
  h_S5000x160 : 0 < S5000x160.numel
  inb_S5000x3_S5000x3_0_0 : ∀ a, (![0, 0] : Fin 2 → Nat) a + S5000x3.size a ≤ S5000x3.size a
  h_S5000x3 : 0 < S5000x3.numel
  slices_S5000x160_o0_0_S5000x32 : S5000x160.Slices ![0, 0] S5000x32
  slices_S5000x160_o0_32_S5000x128 : S5000x160.Slices ![0, 32] S5000x128
  inb_S32x24_S32x24_0_0 : ∀ a, (![0, 0] : Fin 2 → Nat) a + S32x24.size a ≤ S32x24.size a
  h_S32x24 : 0 < S32x24.numel
  inb_S24_S24_0 : ∀ a, (![0] : Fin 1 → Nat) a + S24.size a ≤ S24.size a
  h_S24 : 0 < S24.numel
  shapeCasts_S24_S1x24 : S24.ShapeCasts S1x24
  broadcasts_S1x24_S5000x24 : S1x24.Broadcasts S5000x24
  concatenates_S5000x3_S5000x3_S5000x3_S5000x3_S5000x3_S5000x3_S5000x3_S5000x3_S5000x24_d1 : Shape.Concatenates [S5000x3, S5000x3, S5000x3, S5000x3, S5000x3, S5000x3, S5000x3, S5000x3] S5000x24 1
  inb_S5000x24_S5000x24_0_0 : ∀ a, (![0, 0] : Fin 2 → Nat) a + S5000x24.size a ≤ S5000x24.size a
  h_S5000x24 : 0 < S5000x24.numel
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S3x96_S3x96_0_0 : ∀ a, (![0, 0] : Fin 2 → Nat) a + S3x96.size a ≤ S3x96.size a
  h_S3x96 : 0 < S3x96.numel
  shapeCasts_S3x96_S3x96 : S3x96.ShapeCasts S3x96
  inb_S96x64_S96x64_0_0 : ∀ a, (![0, 0] : Fin 2 → Nat) a + S96x64.size a ≤ S96x64.size a
  h_S96x64 : 0 < S96x64.numel
  inb_S64_S64_0 : ∀ a, (![0] : Fin 1 → Nat) a + S64.size a ≤ S64.size a
  h_S64 : 0 < S64.numel
  slices_S5000x24_o0_0_S5000x3 : S5000x24.Slices ![0, 0] S5000x3
  shapeCasts_S64_S1x64 : S64.ShapeCasts S1x64
  broadcasts_S1x64_S5000x64 : S1x64.Broadcasts S5000x64
  slices_S5000x24_o0_3_S5000x3 : S5000x24.Slices ![0, 3] S5000x3
  concatenates_S5000x64_S5000x64_S5000x128_d1 : Shape.Concatenates [S5000x64, S5000x64] S5000x128 1
  inb_S5000x512_S5000x128_0_0 : ∀ a, (![0, 0] : Fin 2 → Nat) a + S5000x128.size a ≤ S5000x512.size a
  h_S5000x128 : 0 < S5000x128.numel
  slices_S5000x24_o0_6_S5000x3 : S5000x24.Slices ![0, 6] S5000x3
  slices_S5000x24_o0_9_S5000x3 : S5000x24.Slices ![0, 9] S5000x3
  inb_S5000x512_S5000x128_0_128 : ∀ a, (![0, 128] : Fin 2 → Nat) a + S5000x128.size a ≤ S5000x512.size a
  slices_S5000x24_o0_12_S5000x3 : S5000x24.Slices ![0, 12] S5000x3
  slices_S5000x24_o0_15_S5000x3 : S5000x24.Slices ![0, 15] S5000x3
  inb_S5000x512_S5000x128_0_256 : ∀ a, (![0, 256] : Fin 2 → Nat) a + S5000x128.size a ≤ S5000x512.size a
  slices_S5000x24_o0_18_S5000x3 : S5000x24.Slices ![0, 18] S5000x3
  slices_S5000x24_o0_21_S5000x3 : S5000x24.Slices ![0, 21] S5000x3
  inb_S5000x512_S5000x128_0_384 : ∀ a, (![0, 384] : Fin 2 → Nat) a + S5000x128.size a ≤ S5000x512.size a
  shapeCasts_S100000x24_S800000x3 : S100000x24.ShapeCasts S800000x3
  shapeCasts_S100000x512_S800000x64 : S100000x512.ShapeCasts S800000x64
  bcast_S100000_S100000x8_0 : S100000.BroadcastsInDim S100000x8 (![0] : Fin 1 → Fin S100000x8.rank)
  shapeCasts_S100000x8_S800000 : S100000x8.ShapeCasts S800000
  dot_S5000x32_S32x24_S5000x24_1_0_0_1_n_n_wf : DotDims.WF S5000x32 S32x24 S5000x24 [1] [0] [0] [1] [] []
  dot_S5000x128_S128x96_S5000x96_1_0_0_1_n_n_wf : DotDims.WF S5000x128 S128x96 S5000x96 [1] [0] [0] [1] [] []
  dot_S5000x3_S3x96_S5000x96_1_0_0_1_n_n_wf : DotDims.WF S5000x3 S3x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x160.size a ≤ S100000x160.size a
  hwx0_0 : ∀ i : grid0.Coords, EltTy.bits .f32 = 32 ∨ (Rect.block (s := S100000x160) S5000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x24.size a ≤ S32x24.size a
  hwx0_2 : ∀ i : grid0.Coords, EltTy.bits .f32 = 32 ∨ (Rect.block (s := S32x24) S32x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24.size a ≤ S24.size a
  hwx0_3 : ∀ i : grid0.Coords, EltTy.bits .f32 = 32 ∨ (Rect.block (s := S24) S24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x96.size a ≤ S3x96.size a
  hwx0_4 : ∀ i : grid0.Coords, EltTy.bits .f32 = 32 ∨ (Rect.block (s := S3x96) S3x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x96.size a ≤ S128x96.size a
  hwx0_5 : ∀ i : grid0.Coords, EltTy.bits .f32 = 32 ∨ (Rect.block (s := S128x96) S128x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96.size a ≤ S96.size a
  hwx0_6 : ∀ i : grid0.Coords, EltTy.bits .f32 = 32 ∨ (Rect.block (s := S96) S96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x64.size a ≤ S96x64.size a
  hwx0_7 : ∀ i : grid0.Coords, EltTy.bits .f32 = 32 ∨ (Rect.block (s := S96x64) S96x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x24.size a ≤ S100000x24.size a
  hwx0_9 : ∀ i : grid0.Coords, EltTy.bits .f32 = 32 ∨ (Rect.block (s := S100000x24) S5000x24.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x512.size a ≤ S100000x512.size a
  hwx0_10 : ∀ i : grid0.Coords, EltTy.bits .f32 = 32 ∨ (Rect.block (s := S100000x512) S5000x512.size (cc0_transform_10 i) (hinb0_10 i)).WholeWords (EltTy.packing .f32)

variable [Facts₀]

def dot_S5000x32_S32x24_S5000x24_1_0_0_1_n_n : DotDims S5000x32 S32x24 S5000x24 where
  lhsContracting := [1]
  rhsContracting := [0]
  lhsNonContracting := [0]
  rhsNonContracting := [1]
  lhsBatch := []
  rhsBatch := []
  wf := dot_S5000x32_S32x24_S5000x24_1_0_0_1_n_n_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def dot_S5000x3_S3x96_S5000x96_1_0_0_1_n_n : DotDims S5000x3 S3x96 S5000x96 where
  lhsContracting := [1]
  rhsContracting := [0]
  lhsNonContracting := [0]
  rhsNonContracting := [1]
  lhsBatch := []
  rhsBatch := []
  wf := dot_S5000x3_S3x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg1) S5000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S3x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S96x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S5000x24.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S5000x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x160 : Shape := ⟨2, ![100000, 160]⟩
abbrev S100000 : Shape := ⟨1, ![100000]⟩
abbrev S32x24 : Shape := ⟨2, ![32, 24]⟩
abbrev S24 : Shape := ⟨1, ![24]⟩
abbrev S131x96 : Shape := ⟨2, ![131, 96]⟩
abbrev S96 : Shape := ⟨1, ![96]⟩
abbrev S96x64 : Shape := ⟨2, ![96, 64]⟩
abbrev S64 : Shape := ⟨1, ![64]⟩
abbrev S100000x32 : Shape := ⟨2, ![100000, 32]⟩
abbrev S100000x128 : Shape := ⟨2, ![100000, 128]⟩
abbrev S100000x24 : Shape := ⟨2, ![100000, 24]⟩
abbrev S1x24 : Shape := ⟨2, ![1, 24]⟩
abbrev S800000x3 : Shape := ⟨2, ![800000, 3]⟩
abbrev S100000x8 : Shape := ⟨2, ![100000, 8]⟩
abbrev S800000 : Shape := ⟨1, ![800000]⟩
abbrev S100000x8x128 : Shape := ⟨3, ![100000, 8, 128]⟩
abbrev S800000x128 : Shape := ⟨2, ![800000, 128]⟩
abbrev S800000x131 : Shape := ⟨2, ![800000, 131]⟩
abbrev S800000x96 : Shape := ⟨2, ![800000, 96]⟩
abbrev S1x96 : Shape := ⟨2, ![1, 96]⟩
abbrev S_ : Shape := ⟨0, ![]⟩
abbrev S800000x64 : Shape := ⟨2, ![800000, 64]⟩
abbrev S1x64 : Shape := ⟨2, ![1, 64]⟩
abbrev S100000x8x3 : Shape := ⟨3, ![100000, 8, 3]⟩

abbrev nBuf : Space → Nat
  | .hbm => 41
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x160, .f32⟩
  | .hbm, ⟨2, _⟩ => ⟨S100000, .i32⟩
  | .hbm, ⟨3, _⟩ => ⟨S32x24, .f32⟩
  | .hbm, ⟨4, _⟩ => ⟨S24, .f32⟩
  | .hbm, ⟨5, _⟩ => ⟨S131x96, .f32⟩
  | .hbm, ⟨6, _⟩ => ⟨S96, .f32⟩
  | .hbm, ⟨7, _⟩ => ⟨S96x64, .f32⟩
  | .hbm, ⟨8, _⟩ => ⟨S64, .f32⟩
  | .hbm, ⟨9, _⟩ => ⟨S100000x32, .f32⟩
  | .hbm, ⟨10, _⟩ => ⟨S100000x128, .f32⟩
  | .hbm, ⟨11, _⟩ => ⟨S100000x24, .f32⟩
  | .hbm, ⟨12, _⟩ => ⟨S1x24, .f32⟩
  | .hbm, ⟨13, _⟩ => ⟨S100000x24, .f32⟩
  | .hbm, ⟨14, _⟩ => ⟨S100000x24, .f32⟩
  | .hbm, ⟨15, _⟩ => ⟨S800000x3, .f32⟩
  | .hbm, ⟨16, _⟩ => ⟨S100000x8, .i32⟩
  | .hbm, ⟨17, _⟩ => ⟨S800000, .i32⟩
  | .hbm, ⟨18, _⟩ => ⟨S100000x8x128, .f32⟩
  | .hbm, ⟨19, _⟩ => ⟨S800000x128, .f32⟩
  | .hbm, ⟨20, _⟩ => ⟨S800000x131, .f32⟩
  | .hbm, ⟨21, _⟩ => ⟨S800000x96, .f32⟩
  | .hbm, ⟨22, _⟩ => ⟨S1x96, .f32⟩
  | .hbm, ⟨23, _⟩ => ⟨S800000x96, .f32⟩
  | .hbm, ⟨24, _⟩ => ⟨S800000x96, .f32⟩
  | .hbm, ⟨25, _⟩ => ⟨S_, .f32⟩
  | .hbm, ⟨26, _⟩ => ⟨S800000x96, .f32⟩
  | .hbm, ⟨27, _⟩ => ⟨S800000x96, .f32⟩
  | .hbm, ⟨28, _⟩ => ⟨S800000x64, .f32⟩
  | .hbm, ⟨29, _⟩ => ⟨S1x64, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S100000x8x3, .f32⟩
  | .hbm, ⟨36, _⟩ => ⟨S800000x3, .f32⟩
  | .hbm, ⟨37, _⟩ => ⟨S_, .f32⟩
  | .hbm, ⟨38, _⟩ => ⟨S800000x3, .f32⟩
  | .hbm, ⟨39, _⟩ => ⟨S800000x3, .f32⟩
  | .hbm, ⟨40, _⟩ => ⟨S800000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  slices_S100000x160_S100000x32_0_0 : S100000x160.Slices ![0, 0] S100000x32
  slices_S100000x160_S100000x128_0_32 : S100000x160.Slices ![0, 32] S100000x128
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  shapeCasts_S100000x24_S800000x3 : S100000x24.ShapeCasts S800000x3
  bcast_S100000_S100000x8_0 : S100000.BroadcastsInDim S100000x8 (![0] : Fin 1 → Fin S100000x8.rank)
  shapeCasts_S100000x8_S800000 : S100000x8.ShapeCasts S800000
  bcast_S100000x128_S100000x8x128_0_2 : S100000x128.BroadcastsInDim S100000x8x128 (![0, 2] : Fin 2 → Fin S100000x8x128.rank)
  shapeCasts_S100000x8x128_S800000x128 : S100000x8x128.ShapeCasts S800000x128
  concatenates_S800000x3_S800000x128_S800000x131_d1 : Shape.Concatenates [S800000x3, S800000x128] S800000x131 1
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S100000x3_S100000x8x3_0_2 : S100000x3.BroadcastsInDim S100000x8x3 (![0, 2] : Fin 2 → Fin S100000x8x3.rank)
  shapeCasts_S100000x8x3_S800000x3 : S100000x8x3.ShapeCasts S800000x3
  bcast_S_S800000x3 : S_.BroadcastsInDim S800000x3 (![] : Fin 0 → Fin S800000x3.rank)
  dot_S100000x32_S32x24_S100000x24_1_0_0_1_n_n_wf : DotDims.WF S100000x32 S32x24 S100000x24 [1] [0] [0] [1] [] []
  dot_S800000x131_S131x96_S800000x96_1_0_0_1_n_n_wf : DotDims.WF S800000x131 S131x96 S800000x96 [1] [0] [0] [1] [] []
  dot_S800000x96_S96x64_S800000x64_1_0_0_1_n_n_wf : DotDims.WF S800000x96 S96x64 S800000x64 [1] [0] [0] [1] [] []

variable [Facts₀]

def dot_S100000x32_S32x24_S100000x24_1_0_0_1_n_n : DotDims S100000x32 S32x24 S100000x24 where
  lhsContracting := [1]
  rhsContracting := [0]
  lhsNonContracting := [0]
  rhsNonContracting := [1]
  lhsBatch := []
  rhsBatch := []
  wf := dot_S100000x32_S32x24_S100000x24_1_0_0_1_n_n_wf
def dot_S800000x131_S131x96_S800000x96_1_0_0_1_n_n : DotDims S800000x131 S131x96 S800000x96 where
  lhsContracting := [1]
  rhsContracting := [0]
  lhsNonContracting := [0]
  rhsNonContracting := [1]
  lhsBatch := []
  rhsBatch := []
  wf := dot_S800000x131_S131x96_S800000x96_1_0_0_1_n_n_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf

class Facts : Prop extends Facts₀ where

variable [Facts]
-- ==== Proof.Spec.lean ====
/-
  The neighbourhood decoder as functions of its argument arrays, on the extended reals.

  Every input point `n` carries a feature row of 160 numbers. Its first 32 numbers are decoded, by an affine map, into
  24 numbers: eight relative offsets of three coordinates each, coordinate `d` of neighbour `k` at position `3 k + d`.
  Output one adds half of each offset to the point itself: position `c` of row `n` is
  `pts (n, c % 3) + offs (n, c) * half`.
  Output two pushes, for each neighbour `k`, the three offsets and the remaining 128 features of the point through two
  affine layers, each followed by a maximum with zero. The first layer's weight matrix is given in two parts: three rows
  that act on the offsets and 128 rows that act on the features. Position `64 k + o` of row `n` holds output `o` of
  neighbour `k`.

  Both outputs are ROW LOCAL: row `n` of an output depends on row `n` of the points and of the features only, so the
  functions below are stated for any number `R` of rows and a block of rows of the output is the function of the
  corresponding blocks of the inputs (the `_congr` lemmas).

  The two float constants (one half, zero) are parameters: both programs use the same words and nothing here evaluates them.
-/
import Idealize.ShloMosaic.PureOps.Ideal
import Idealize.ShloMosaic.Lib.ValueIdx

noncomputable section

open scoped BigOperators

namespace Cert.Decoder

open Idealize.ShloMosaic Idealize.ShloMosaic.ValueIdx

/-- An `a × b` array of extended reals. -/
abbrev Mat (a b : Nat) : Type := (⟨2, ![a, b]⟩ : Shape).Idx → EReal
/-- A vector of `a` extended reals. -/
abbrev Row (a : Nat) : Type := (⟨1, ![a]⟩ : Shape).Idx → EReal

/-- Position `c` of a flat row of eight triples holds coordinate `c % 3`. -/
def coord (c : Fin 24) : Fin 3 := ⟨c.val % 3, Nat.mod_lt _ (by decide)⟩
/-- Coordinate `d` of neighbour `k` sits at position `3 k + d`. -/
def pos (k : Fin 8) (d : Fin 3) : Fin 24 := ⟨3 * k.val + d.val, by omega⟩
/-- Feature `f` of the last 128 sits at position `32 + f` of the feature row. -/
def tail (f : Fin 128) : Fin 160 := ⟨32 + f.val, by omega⟩
/-- Feature `k` of the first 32 sits at position `k` of the feature row. -/
def head (k : Fin 32) : Fin 160 := ⟨k.val, by omega⟩
/-- Position `q` of a flat row of eight blocks of 64 belongs to neighbour `q / 64`. -/
def nbr (q : Fin 512) : Fin 8 := ⟨q.val / 64, by omega⟩
/-- and holds that neighbour's output `q % 64`. -/
def chan (q : Fin 512) : Fin 64 := ⟨q.val % 64, Nat.mod_lt _ (by decide)⟩

variable {R : Nat}

/-- The decoded offsets of point `n`, flat: the affine image of the first 32 features. -/
def offs (feat : Mat R 160) (dW : Mat 32 24) (db : Row 24) (n : Fin R) (c : Fin 24) : EReal :=
  (∑ k : Fin 32, feat (ix2 n (head k)) * dW (ix2 k c)) + db (ix1 c)

/-- OUTPUT ONE, flat: the point repeated eight times plus half of each decoded offset. -/
def pointsFlat (half : EReal) (pts : Mat R 3) (feat : Mat R 160) (dW : Mat 32 24) (db : Row 24) : Mat R 24 :=
  fun j => pts (ix2 (j 0) (coord (j 1))) + offs feat dW db (j 0) (j 1) * half

/-- The part of the first layer that every neighbour of point `n` shares: the last 128 features through their 128
    rows of the weight matrix, plus the bias. -/
def shared (feat : Mat R 160) (w1b : Mat 128 96) (b1 : Row 96) (n : Fin R) (h : Fin 96) : EReal :=
  (∑ f : Fin 128, feat (ix2 n (tail f)) * w1b (ix2 f h)) + b1 (ix1 h)

/-- The first layer of neighbour `k` of point `n`: its three offsets through their three rows of the weight matrix,
    plus the shared part, cut at zero. -/
def hidden (zero : EReal) (feat : Mat R 160) (dW : Mat 32 24) (db : Row 24) (w1a : Mat 3 96) (w1b : Mat 128 96)
    (b1 : Row 96) (n : Fin R) (k : Fin 8) (h : Fin 96) : EReal :=
  max ((∑ d : Fin 3, offs feat dW db n (pos k d) * w1a (ix2 d h)) + shared feat w1b b1 n h) zero

/-- The second layer of neighbour `k` of point `n`, cut at zero. -/
def outer (zero : EReal) (feat : Mat R 160) (dW : Mat 32 24) (db : Row 24) (w1a : Mat 3 96) (w1b : Mat 128 96)
    (b1 : Row 96) (W2 : Mat 96 64) (b2 : Row 64) (n : Fin R) (k : Fin 8) (o : Fin 64) : EReal :=
  max ((∑ h : Fin 96, hidden zero feat dW db w1a w1b b1 n k h * W2 (ix2 h o)) + b2 (ix1 o)) zero

/-- OUTPUT TWO, flat: position `64 k + o` of row `n` is output `o` of neighbour `k`. -/
def featsFlat (zero : EReal) (feat : Mat R 160) (dW : Mat 32 24) (db : Row 24) (w1a : Mat 3 96) (w1b : Mat 128 96)
    (b1 : Row 96) (W2 : Mat 96 64) (b2 : Row 64) : Mat R 512 :=
  fun j => outer zero feat dW db w1a w1b b1 W2 b2 (j 0) (nbr (j 1)) (chan (j 1))

/-! ## Row locality -/

section congr
variable {R' : Nat} (feat : Mat R 160) (feat' : Mat R' 160) (n : Fin R) (p : Fin R')
  (hf : ∀ k : Fin 160, feat' (ix2 p k) = feat (ix2 n k))
include hf

theorem offs_congr (dW : Mat 32 24) (db : Row 24) (c : Fin 24) :
    offs feat' dW db p c = offs feat dW db n c := by
  unfold offs; simp only [hf]

theorem shared_congr (w1b : Mat 128 96) (b1 : Row 96) (h : Fin 96) :
    shared feat' w1b b1 p h = shared feat w1b b1 n h := by
  unfold shared; simp only [hf]

theorem hidden_congr (zero : EReal) (dW : Mat 32 24) (db : Row 24) (w1a : Mat 3 96) (w1b : Mat 128 96) (b1 : Row 96)
    (k : Fin 8) (h : Fin 96) :
    hidden zero feat' dW db w1a w1b b1 p k h = hidden zero feat dW db w1a w1b b1 n k h := by
  unfold hidden; simp only [offs_congr feat feat' n p hf, shared_congr feat feat' n p hf]

theorem outer_congr (zero : EReal) (dW : Mat 32 24) (db : Row 24) (w1a : Mat 3 96) (w1b : Mat 128 96) (b1 : Row 96)
    (W2 : Mat 96 64) (b2 : Row 64) (k : Fin 8) (o : Fin 64) :
    outer zero feat' dW db w1a w1b b1 W2 b2 p k o = outer zero feat dW db w1a w1b b1 W2 b2 n k o := by
  unfold outer; simp only [hidden_congr feat feat' n p hf]

/-- A row of output two depends on that row of the features only. -/
theorem featsFlat_congr (zero : EReal) (dW : Mat 32 24) (db : Row 24) (w1a : Mat 3 96) (w1b : Mat 128 96) (b1 : Row 96)
    (W2 : Mat 96 64) (b2 : Row 64) (q : Fin 512) :
    featsFlat zero feat' dW db w1a w1b b1 W2 b2 (ix2 p q) = featsFlat zero feat dW db w1a w1b b1 W2 b2 (ix2 n q) := by
  show outer zero feat' dW db w1a w1b b1 W2 b2 p (nbr q) (chan q) = outer zero feat dW db w1a w1b b1 W2 b2 n (nbr q) (chan q)
  exact outer_congr feat feat' n p hf zero dW db w1a w1b b1 W2 b2 _ _

/-- A row of output one depends on that row of the points and of the features only. -/
theorem pointsFlat_congr (half : EReal) (pts : Mat R 3) (pts' : Mat R' 3) (hp : ∀ d : Fin 3, pts' (ix2 p d) = pts (ix2 n d))
    (dW : Mat 32 24) (db : Row 24) (c : Fin 24) :
    pointsFlat half pts' feat' dW db (ix2 p c) = pointsFlat half pts feat dW db (ix2 n c) := by
  show pts' (ix2 p (coord c)) + offs feat' dW db p c * half = pts (ix2 n (coord c)) + offs feat dW db n c * half
  rw [hp, offs_congr feat feat' n p hf]

end congr

end Cert.Decoder

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.BlockValue.lean ====
/-
  The body's values at a block index, on the extended reals.

  One grid point sees 5000 rows of the features and of the points and all of the small arrays. This module reads, at a
  row `p` of the block, the values the body computes from them: the decoded offsets, the part of the first layer the
  eight neighbours share, and one neighbour's two layers — each as the specification's function of the loaded blocks.
-/
import proofs.«141552_j45389214384422_2_alg».proof.Proof.Gen.KernelIdeal.Skeleton
import proofs.«141552_j45389214384422_2_alg».proof.Proof.Spec
import proofs.«141552_j45389214384422_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.Decoder

variable [Facts]
open Facts₀ Facts

/-! ## The four products -/

theorem dec_apply (l : FVec Ideal S5000x32 .f32) (r : FVec Ideal S32x24 .f32) (p : Fin 5000) (c : Fin 24) :
    matmul dot_S5000x32_S32x24_S5000x24_1_0_0_1_n_n none l r (constant S5000x24 .f32 0x00000000#32) (ix2 p c)
      = ∑ k : Fin 32, l (ix2 p k) * r (ix2 k c) :=
  Cert.LibPlainDot.matmul_zero_apply Facts₀.dot_S5000x32_S32x24_S5000x24_1_0_0_1_n_n_wf none l r p c

theorem feat_apply (l : FVec Ideal S5000x128 .f32) (r : FVec Ideal S128x96 .f32) (p : Fin 5000) (h : Fin 96) :
    matmul dot_S5000x128_S128x96_S5000x96_1_0_0_1_n_n none l r (constant S5000x96 .f32 0x00000000#32) (ix2 p h)
      = ∑ f : Fin 128, l (ix2 p f) * r (ix2 f h) :=
  Cert.LibPlainDot.matmul_zero_apply Facts₀.dot_S5000x128_S128x96_S5000x96_1_0_0_1_n_n_wf none l r p h

theorem rel_apply (l : FVec Ideal S5000x3 .f32) (r : FVec Ideal S3x96 .f32) (p : Fin 5000) (h : Fin 96) :
    matmul dot_S5000x3_S3x96_S5000x96_1_0_0_1_n_n none l r (constant S5000x96 .f32 0x00000000#32) (ix2 p h)
      = ∑ d : Fin 3, l (ix2 p d) * r (ix2 d h) :=
  Cert.LibPlainDot.matmul_zero_apply Facts₀.dot_S5000x3_S3x96_S5000x96_1_0_0_1_n_n_wf none l r p h

theorem out_apply (l : FVec Ideal S5000x96 .f32) (r : FVec Ideal S96x64 .f32) (p : Fin 5000) (o : Fin 64) :
    matmul dot_S5000x96_S96x64_S5000x64_1_0_0_1_n_n none l r (constant S5000x64 .f32 0x00000000#32) (ix2 p o)
      = ∑ h : Fin 96, l (ix2 p h) * r (ix2 h o) :=
  Cert.LibPlainDot.matmul_zero_apply Facts₀.dot_S5000x96_S96x64_S5000x64_1_0_0_1_n_n_wf none l r p o

/-! ## The decoded offsets and the shared part of the first layer -/

/-- The decoded offsets of row `p` of the block: the affine image of the row's first 32 features. -/
theorem offs_blk (x0 : FVec Ideal S5000x160 .f32) (x2 : FVec Ideal S32x24 .f32) (x3 : FVec Ideal S24 .f32)
    (p : Fin 5000) (c : Fin 24) :
    k0_pay2 (F := Ideal) x0 x2 x3 (ix2 p c) = offs (R := 5000) x0 x2 x3 p c := by
  unfold k0_pay2 offs
  rw [addf_apply, dec_apply, broadcastTo_1b_ab_apply, shapeCast_a_1a_apply]
  congr 1
  refine Finset.sum_congr rfl fun k _ => ?_
  rw [slice2_axis1_apply 0 x0 _ p k (head k) (by simp [head])]

/-- The part of the first layer the eight neighbours of row `p` share. -/
theorem shared_blk (x0 : FVec Ideal S5000x160 .f32) (x5 : FVec Ideal S128x96 .f32) (x6 : FVec Ideal S96 .f32)
    (p : Fin 5000) (h : Fin 96) :
    k0_pay4 (F := Ideal) x0 x5 x6 (ix2 p h) = shared (R := 5000) x0 x5 x6 p h := by
  unfold k0_pay4 shared
  rw [addf_apply, feat_apply, broadcastTo_1b_ab_apply, shapeCast_a_1a_apply, shapeCast_self]
  congr 1
  refine Finset.sum_congr rfl fun f _ => ?_
  rw [slice2_axis1_apply 32 x0 _ p f (tail f) (by simp [tail])]

/-- The three rows of the first layer's weights that act on the offsets, as loaded. -/
theorem w1a_blk (x4 : FVec Ideal S3x96 .f32) : k0_pay5 (F := Ideal) x4 = x4 := by
  unfold k0_pay5; exact shapeCast_self _ _

/-! ## One neighbour -/

/-- The float zero both programs cut at. -/
abbrev zeroW : EReal := FloatOps.ofBits (F := Ideal) .f32 0x00000000#32

/-- One neighbour's two layers before the last cut, from the block's decoded offsets `v9`, the shared part `v21`
    and the weights: the three offsets at columns `off`, `off + 1`, `off + 2`. -/
def nb (v9 : FVec Ideal S5000x24 .f32) (v21 : FVec Ideal S5000x96 .f32) (v23 : FVec Ideal S3x96 .f32)
    (v24 : FVec Ideal S96x64 .f32) (v25 : FVec Ideal S64 .f32) (off : Nat) (hs : S5000x24.Slices ![0, off] S5000x3) :
    FVec Ideal S5000x64 .f32 :=
  addf (matmul dot_S5000x96_S96x64_S5000x64_1_0_0_1_n_n none
      (maximumf (addf (matmul dot_S5000x3_S3x96_S5000x96_1_0_0_1_n_n none (extractStridedSlice S5000x3 ![0, off] v9 hs) v23
        (constant S5000x96 .f32 0x00000000#32)) v21) (broadcast S5000x96 (Scalar.ofBits .f32 0x00000000#32)))
      v24 (constant S5000x64 .f32 0x00000000#32))
    (broadcastTo S5000x64 (shapeCast S1x64 v25 Facts₀.shapeCasts_S64_S1x64) Facts₀.broadcasts_S1x64_S5000x64)

/-- Cut at zero and read at row `p`, it is the specification's neighbour `k` when `off = 3 k`. -/
theorem nb_outer (x0 : FVec Ideal S5000x160 .f32) (x2 : FVec Ideal S32x24 .f32) (x3 : FVec Ideal S24 .f32)
    (x4 : FVec Ideal S3x96 .f32) (x5 : FVec Ideal S128x96 .f32) (x6 : FVec Ideal S96 .f32)
    (x7 : FVec Ideal S96x64 .f32) (x8 : FVec Ideal S64 .f32) (off : Nat) (hs : S5000x24.Slices ![0, off] S5000x3)
    (k : Fin 8) (hoff : off = 3 * k.val) (p : Fin 5000) (o : Fin 64) :
    max (nb (k0_pay2 x0 x2 x3) (k0_pay4 x0 x5 x6) (k0_pay5 x4) x7 x8 off hs (ix2 p o)) zeroW
      = outer (R := 5000) zeroW x0 x2 x3 x4 x5 x6 x7 x8 p k o := by
  unfold nb outer Cert.Decoder.hidden
  rw [addf_apply, out_apply, broadcastTo_1b_ab_apply, shapeCast_a_1a_apply]
  refine congrArg (fun z => max (z + x8 (ix1 o)) zeroW) ?_
  refine Finset.sum_congr rfl fun h _ => ?_
  rw [maximumf_apply, addf_apply, rel_apply, broadcast_apply, shared_blk]
  refine congrArg (fun z => max (z + shared (R := 5000) x0 x5 x6 p h) zeroW * x7 (ix2 h o)) ?_
  refine Finset.sum_congr rfl fun d _ => ?_
  rw [slice2_axis1_apply off _ hs p d (pos k d) (by simp [pos, hoff]), offs_blk, w1a_blk]

/-! ## Two neighbours side by side -/

/-- The cut at zero of a block of outputs. -/
abbrev relu (A : FVec Ideal S5000x64 .f32) : FVec Ideal S5000x64 .f32 :=
  maximumf A (broadcast S5000x64 (Scalar.ofBits .f32 0x00000000#32))

/-- Two blocks of 64 outputs laid side by side. -/
abbrev pair (A B : FVec Ideal S5000x64 .f32) : FVec Ideal S5000x128 .f32 :=
  concatenate S5000x128 1 [⟨S5000x64, A⟩, ⟨S5000x64, B⟩] Facts₀.concatenates_S5000x64_S5000x64_S5000x128_d1

/-- Column `q` of the pair is column `q % 64` of the left block when `q < 64`, of the right block otherwise. -/
theorem pair_apply (A B : FVec Ideal S5000x64 .f32) (p : Fin 5000) (q : Fin 128) :
    pair A B (ix2 p q) = (![A, B] ⟨q.val / 64, by omega⟩) (ix2 p ⟨q.val % 64, Nat.mod_lt _ (by decide)⟩) :=
  concatenate_ofFn_apply (t := S5000x128) (s₁ := S5000x64) (1 : Fin 2) ![A, B]
    Facts₀.concatenates_S5000x64_S5000x64_S5000x128_d1 rfl 64 rfl (ix2 p q) ⟨q.val / 64, by omega⟩ rfl
    (ix2 p ⟨q.val % 64, Nat.mod_lt _ (by decide)⟩) rfl
    (fun b hb => by
      match b with
      | ⟨0, _⟩ => rfl
      | ⟨1, _⟩ => exact absurd rfl hb)

/-- Neighbours `2 g` and `2 g + 1` of row `p`, cut at zero and laid side by side, are columns `128 g …` of the
    specification's flat row. -/
theorem pair_outer (x0 : FVec Ideal S5000x160 .f32) (x2 : FVec Ideal S32x24 .f32) (x3 : FVec Ideal S24 .f32)
    (x4 : FVec Ideal S3x96 .f32) (x5 : FVec Ideal S128x96 .f32) (x6 : FVec Ideal S96 .f32)
    (x7 : FVec Ideal S96x64 .f32) (x8 : FVec Ideal S64 .f32) (offA offB : Nat)
    (hsA : S5000x24.Slices ![0, offA] S5000x3) (hsB : S5000x24.Slices ![0, offB] S5000x3)
    (g : Nat) (hg : g < 4) (hA : offA = 6 * g) (hB : offB = 6 * g + 3) (base : Nat) (hbase : base = 128 * g)
    (p : Fin 5000) (q : Fin 128) (hlt : base + q.val < 512) :
    pair (relu (nb (k0_pay2 x0 x2 x3) (k0_pay4 x0 x5 x6) (k0_pay5 x4) x7 x8 offA hsA))
        (relu (nb (k0_pay2 x0 x2 x3) (k0_pay4 x0 x5 x6) (k0_pay5 x4) x7 x8 offB hsB)) (ix2 p q)
      = outer (R := 5000) zeroW x0 x2 x3 x4 x5 x6 x7 x8 p (nbr ⟨base + q.val, hlt⟩) (chan ⟨base + q.val, hlt⟩) := by
  rw [pair_apply]
  have hch : (⟨q.val % 64, Nat.mod_lt _ (by decide)⟩ : Fin 64) = chan ⟨base + q.val, hlt⟩ :=
    Fin.ext (by show q.val % 64 = (base + q.val) % 64; omega)
  rcases Nat.lt_or_ge q.val 64 with hq | hq
  · have he : (⟨q.val / 64, by omega⟩ : Fin 2) = 0 := Fin.ext (by show q.val / 64 = 0; omega)
    rw [he, hch]
    exact nb_outer x0 x2 x3 x4 x5 x6 x7 x8 offA hsA (nbr ⟨base + q.val, hlt⟩)
      (by show offA = 3 * ((base + q.val) / 64); omega) p _
  · have he : (⟨q.val / 64, by omega⟩ : Fin 2) = 1 := Fin.ext (by show q.val / 64 = 1; have := q.isLt; omega)
    rw [he, hch]
    exact nb_outer x0 x2 x3 x4 x5 x6 x7 x8 offB hsB (nbr ⟨base + q.val, hlt⟩)
      (by show offB = 3 * ((base + q.val) / 64); have := q.isLt; omega) p _

end Cert.KernelIdeal.Block

end
-- ==== Proof.BlockOut.lean ====
/-
  What one grid point leaves in its two output blocks, as the specification's functions of the blocks it loaded.

  The first output block is written by one store. The second is written by four stores of 128 columns each, every store
  holding two neighbours side by side: columns `128 g …` hold neighbours `2 g` and `2 g + 1`.
-/
import proofs.«141552_j45389214384422_2_alg».proof.Proof.Gen.KernelIdeal.Frame
import proofs.«141552_j45389214384422_2_alg».proof.Proof.BlockValue

noncomputable section

open scoped BigOperators

namespace Cert.KernelIdeal.Block

open Idealize.ShloMosaic Idealize.ShloMosaic.ValueIdx Cert.KernelIdeal Cert.KernelIdeal.Gen Cert.Decoder

variable [Facts]
open Facts₀ Facts

theorem hz2 : (![0, 0] : Fin 2 → Nat) = fun _ => 0 := funext fun a => by fin_cases a <;> rfl
theorem hz1 : (![0] : Fin 1 → Nat) = fun _ => 0 := funext fun a => by fin_cases a; rfl

/-- The float one half both programs scale the offsets by. -/
abbrev halfW : EReal := FloatOps.ofBits (F := Ideal) .f32 0x3F000000#32

/-- Eight copies of the block of points side by side: column `c` is coordinate `c % 3`. -/
theorem tiled_apply (v1 : FVec Ideal S5000x3 .f32) (p : Fin 5000) (c : Fin 24) :
    concatenate S5000x24 1 [⟨S5000x3, v1⟩, ⟨S5000x3, v1⟩, ⟨S5000x3, v1⟩, ⟨S5000x3, v1⟩, ⟨S5000x3, v1⟩, ⟨S5000x3, v1⟩, ⟨S5000x3, v1⟩, ⟨S5000x3, v1⟩]
        Facts₀.concatenates_S5000x3_S5000x3_S5000x3_S5000x3_S5000x3_S5000x3_S5000x3_S5000x3_S5000x24_d1 (ix2 p c)
      = v1 (ix2 p (coord c)) :=
  concatenate_ofFn_apply (t := S5000x24) (s₁ := S5000x3) (1 : Fin 2) (fun _ : Fin 8 => v1)
    Facts₀.concatenates_S5000x3_S5000x3_S5000x3_S5000x3_S5000x3_S5000x3_S5000x3_S5000x3_S5000x24_d1 rfl 3 rfl (ix2 p c)
    ⟨c.val / 3, by omega⟩ rfl (ix2 p (coord c)) rfl
    (fun b hb => by
      match b with
      | ⟨0, _⟩ => rfl
      | ⟨1, _⟩ => exact absurd rfl hb)

/-- THE FIRST OUTPUT BLOCK: the specification's flat points of the loaded blocks. -/
theorem out9_eq (x0 : Vec Ideal S5000x160 .f32) (x1 : Vec Ideal S5000x3 .f32) (x2 : Vec Ideal S32x24 .f32)
    (x3 : Vec Ideal S24 .f32) (x4 : Vec Ideal S3x96 .f32) (x5 : Vec Ideal S128x96 .f32) (x6 : Vec Ideal S96 .f32)
    (x7 : Vec Ideal S96x64 .f32) (x8 : Vec Ideal S64 .f32) :
    out0_9 (F := Ideal) x0 x1 x2 x3 x4 x5 x6 x7 x8 = pointsFlat (R := 5000) halfW x1 x0 x2 x3 := by
  unfold out0_9
  rw [View.canon_unit_zero hz2]
  simp only [View.ld_unit_zero (S := S5000x160) hz2, View.ld_unit_zero (S := S5000x3) hz2,
    View.ld_unit_zero (S := S32x24) hz2, View.ld_unit_zero (S := S24) hz1]
  funext y
  obtain ⟨p, c, rfl⟩ : ∃ (p : Fin 5000) (c : Fin 24), y = ix2 p c := ⟨y 0, y 1, eq_ix2 y⟩
  unfold k0_pay3 pointsFlat
  rw [addf_apply, mulf_apply, broadcast_apply, offs_blk, tiled_apply]

/-! ## The second output block -/

/-- A store's rectangle: 128 columns from column `base`, all rows; its index `(p, q)` is `(p, base + q)` of the block. -/
theorem piece_emb (base : Nat) (inb : ∀ a, (![0, base] : Fin 2 → Nat) a + S5000x128.size a ≤ S5000x512.size a)
    (p : Fin 5000) (q : Fin 128) (hlt : base + q.val < 512) :
    (Rect.unit (s := S5000x512) ![0, base] S5000x128.size inb).emb (ix2 p q) = ix2 p ⟨base + q.val, hlt⟩ := by
  funext a
  apply Fin.ext
  match a with
  | ⟨0, _⟩ => show 0 + 1 * p.val = p.val; omega
  | ⟨1, _⟩ => show base + 1 * q.val = base + q.val; omega

/-- THE SECOND OUTPUT BLOCK: the specification's flat outputs of the loaded blocks. -/
theorem out10_eq (x0 : Vec Ideal S5000x160 .f32) (x1 : Vec Ideal S5000x3 .f32) (x2 : Vec Ideal S32x24 .f32)
    (x3 : Vec Ideal S24 .f32) (x4 : Vec Ideal S3x96 .f32) (x5 : Vec Ideal S128x96 .f32) (x6 : Vec Ideal S96 .f32)
    (x7 : Vec Ideal S96x64 .f32) (x8 : Vec Ideal S64 .f32) :
    out0_10 (F := Ideal) x0 x1 x2 x3 x4 x5 x6 x7 x8 = featsFlat (R := 5000) zeroW x0 x2 x3 x4 x5 x6 x7 x8 := by
  unfold out0_10
  simp only [View.ld_unit_zero (S := S5000x160) hz2, View.ld_unit_zero (S := S32x24) hz2,
    View.ld_unit_zero (S := S24) hz1, View.ld_unit_zero (S := S3x96) hz2, View.ld_unit_zero (S := S128x96) hz2,
    View.ld_unit_zero (S := S96) hz1, View.ld_unit_zero (S := S96x64) hz2, View.ld_unit_zero (S := S64) hz1]
  funext y
  refine View.canon_apply_of_pieces (Val := Elt Ideal) (featsFlat (R := 5000) zeroW x0 x2 x3 x4 x5 x6 x7 x8) _ ?_ y (cover0_10 _ _ _ _ y)
  intro pc hpc x
  simp only [List.mem_cons, List.mem_nil_iff, or_false] at hpc
  rcases hpc with rfl | rfl | rfl | rfl <;>
    (obtain ⟨p, q, rfl⟩ : ∃ (p : Fin 5000) (q : Fin 128), x = ix2 p q := ⟨x 0, x 1, eq_ix2 x⟩) <;>
    have hq : q.val < 128 := q.isLt
  · show k0_pay1 (F := Ideal) _ _ (ix2 p q) = featsFlat (R := 5000) zeroW x0 x2 x3 x4 x5 x6 x7 x8 (r0_13.emb (ix2 p q))
    rw [piece_emb 384 _ p q (by omega)]
    exact pair_outer x0 x2 x3 x4 x5 x6 x7 x8 18 21 _ _ 3 (by decide) rfl rfl 384 rfl p q (by omega)
  · show k0_pay10 (F := Ideal) _ _ _ _ _ _ _ (ix2 p q) = featsFlat (R := 5000) zeroW x0 x2 x3 x4 x5 x6 x7 x8 (r0_12.emb (ix2 p q))
    rw [piece_emb 256 _ p q (by omega)]
    exact pair_outer x0 x2 x3 x4 x5 x6 x7 x8 12 15 Facts₀.slices_S5000x24_o0_12_S5000x3 Facts₀.slices_S5000x24_o0_15_S5000x3 2 (by decide) rfl rfl 256 rfl p q (by omega)
  · show k0_pay8 (F := Ideal) _ _ _ _ _ (ix2 p q) = featsFlat (R := 5000) zeroW x0 x2 x3 x4 x5 x6 x7 x8 (r0_11.emb (ix2 p q))
    rw [piece_emb 128 _ p q (by omega)]
    exact pair_outer x0 x2 x3 x4 x5 x6 x7 x8 6 9 _ _ 1 (by decide) rfl rfl 128 rfl p q (by omega)
  · show k0_pay7 (F := Ideal) _ _ _ _ _ _ (ix2 p q) = featsFlat (R := 5000) zeroW x0 x2 x3 x4 x5 x6 x7 x8 (r0_10.emb (ix2 p q))
    rw [piece_emb 0 _ p q (by omega)]
    exact pair_outer x0 x2 x3 x4 x5 x6 x7 x8 0 3 _ _ 0 (by decide) rfl rfl 0 rfl p q (by omega)

end Cert.KernelIdeal.Block

end
-- ==== Proof.Blocks.lean ====
/-
  Where each window's block sits.

  The grid has twenty points. At point `t` the four row windows (the features, the points and the two outputs) hold
  the block of 5000 consecutive rows starting at row `5000 * b`, where `b` is the block index of the first output at
  `t`; the seven parameter windows hold their whole arrays at every point. A block's coordinate on an axis is always
  the block index times the block's extent plus the coordinate inside the block. Every row of the two output arrays
  lies in the block of the point whose block index is the row divided by 5000.
-/
import proofs.«141552_j45389214384422_2_alg».proof.Proof.Gen.KernelIdeal.Frame
import proofs.«141552_j45389214384422_2_alg».proof.Proof.Gen.KernelIdeal.Points
import Idealize.ShloMosaic.Lib.Pipeline.Value
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The block indices, decided over the twenty points -/

/-- The row windows move together along the rows and never along the columns; the first output's block index stays
    below twenty; the parameter windows never move. -/
theorem index_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_9.index t (1 : Fin 2) = 0
    ∧ win0_10.index t (0 : Fin 2) = win0_9.index t (0 : Fin 2) ∧ win0_10.index t (1 : Fin 2) = 0
    ∧ win0_9.index t (0 : Fin 2) ≤ 19
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every block of rows of the first output is some point's. -/
theorem index_onto9 : ∀ q0 : Fin 20, ∃ t : Fin cfg0.N, win0_9.index t = ![q0.val, 0] :=
  (by decide +kernel : ∀ q0 : Fin 20, ∃ t : Fin grid0.N, win0_9.index t = ![q0.val, 0])

/-- Every block of rows of the second output is some point's. -/
theorem index_onto10 : ∀ q0 : Fin 20, ∃ t : Fin cfg0.N, win0_10.index t = ![q0.val, 0] :=
  (by decide +kernel : ∀ q0 : Fin 20, ∃ t : Fin grid0.N, win0_10.index t = ![q0.val, 0])

/-! ## The rows of a point's block -/

/-- Row `p` of the block of point `t` is this row of the arrays. -/
def rowAt (t : Fin cfg0.N) (p : Fin 5000) : Fin 100000 :=
  ⟨win0_9.index t (0 : Fin 2) * 5000 + p.val, by
    have h := (index_facts t).2.2.2.2.2.2.2.1
    have hp := p.isLt
    omega⟩

theorem rowAt_val (t : Fin cfg0.N) (p : Fin 5000) : (rowAt t p).val = win0_9.index t (0 : Fin 2) * 5000 + p.val := rfl

/-- The first output's block at `(p, c)` is the array at `(rowAt t p, c)`. -/
theorem emb9 (t : Fin cfg0.N) (p : Fin 5000) (c : Fin 24) :
    ((cfg0.win 9).blk t).view.emb (ix2 p c) = ix2 (rowAt t p) c := by
  obtain ⟨e00, e01, e10, e11, e91, ea0, ea1, e9le, e20, e21, e30, e40, e41, e50, e51, e60, e70, e71, e80⟩ := index_facts t
  funext a
  apply Fin.ext
  match a with
  | ⟨0, _⟩ =>
    show win0_9.index t (0 : Fin 2) * 5000 + 1 * p.val = win0_9.index t (0 : Fin 2) * 5000 + p.val
    omega
  | ⟨1, _⟩ =>
    show win0_9.index t (1 : Fin 2) * 24 + 1 * c.val = c.val
    omega

/-- The second output's block at `(p, q)` is the array at `(rowAt t p, q)`. -/
theorem emb10 (t : Fin cfg0.N) (p : Fin 5000) (q : Fin 512) :
    ((cfg0.win 10).blk t).view.emb (ix2 p q) = ix2 (rowAt t p) q := by
  obtain ⟨e00, e01, e10, e11, e91, ea0, ea1, e9le, e20, e21, e30, e40, e41, e50, e51, e60, e70, e71, e80⟩ := index_facts t
  funext a
  apply Fin.ext
  match a with
  | ⟨0, _⟩ =>
    show win0_10.index t (0 : Fin 2) * 5000 + 1 * p.val = win0_9.index t (0 : Fin 2) * 5000 + p.val
    omega
  | ⟨1, _⟩ =>
    show win0_10.index t (1 : Fin 2) * 512 + 1 * q.val = q.val
    omega

/-- The features' block at `(p, k)` is the array at `(rowAt t p, k)`. -/
theorem emb0 (t : Fin cfg0.N) (p : Fin 5000) (k : Fin 160) :
    ((cfg0.win 0).blk t).view.emb (ix2 p k) = ix2 (rowAt t p) k := by
  obtain ⟨e00, e01, e10, e11, e91, ea0, ea1, e9le, e20, e21, e30, e40, e41, e50, e51, e60, e70, e71, e80⟩ := index_facts t
  funext a
  apply Fin.ext
  match a with
  | ⟨0, _⟩ =>
    show win0_0.index t (0 : Fin 2) * 5000 + 1 * p.val = win0_9.index t (0 : Fin 2) * 5000 + p.val
    omega
  | ⟨1, _⟩ =>
    show win0_0.index t (1 : Fin 2) * 160 + 1 * k.val = k.val
    omega

/-- The points' block at `(p, d)` is the array at `(rowAt t p, d)`. -/
theorem emb1 (t : Fin cfg0.N) (p : Fin 5000) (d : Fin 3) :
    ((cfg0.win 1).blk t).view.emb (ix2 p d) = ix2 (rowAt t p) d := by
  obtain ⟨e00, e01, e10, e11, e91, ea0, ea1, e9le, e20, e21, e30, e40, e41, e50, e51, e60, e70, e71, e80⟩ := index_facts t
  funext a
  apply Fin.ext
  match a with
  | ⟨0, _⟩ =>
    show win0_1.index t (0 : Fin 2) * 5000 + 1 * p.val = win0_9.index t (0 : Fin 2) * 5000 + p.val
    omega
  | ⟨1, _⟩ =>
    show win0_1.index t (1 : Fin 2) * 3 + 1 * d.val = d.val
    omega

/-! ## The input blocks, read -/

variable (m : (ℓ : Loc nD τ sig) → Buf (Elt F) ℓ)

/-- The features' block at `(p, k)`: the array as the region finds it, at row `rowAt t p`. -/
theorem iblk0_apply (c : Dev nD) (t : Fin cfg0.N) (p : Fin 5000) (k : Fin 160) :
    iblk m c 0 t (ix2 p k) = V m c main_arg1 (ix2 (rowAt t p) k) := by
  unfold iblk
  show V m c main_arg1 (((cfg0.win 0).blk t).view.emb (ix2 p k)) = V m c main_arg1 (ix2 (rowAt t p) k)
  rw [emb0]

/-- The points' block at `(p, d)`: the array as the region finds it, at row `rowAt t p`. -/
theorem iblk1_apply (c : Dev nD) (t : Fin cfg0.N) (p : Fin 5000) (d : Fin 3) :
    iblk m c 1 t (ix2 p d) = V m c main_arg0 (ix2 (rowAt t p) d) := by
  unfold iblk
  show V m c main_arg0 (((cfg0.win 1).blk t).view.emb (ix2 p d)) = V m c main_arg0 (ix2 (rowAt t p) d)
  rw [emb1]

/-- The decoder's weights: the whole array at every point. -/
theorem iblk2_eq (c : Dev nD) (t : Fin cfg0.N) :
    (iblk m c 2 t : (⟨S32x24, .f32⟩ : BufTy).Contents (Elt F)) = V m c main_arg3 := by
  obtain ⟨e00, e01, e10, e11, e91, ea0, ea1, e9le, e20, e21, e30, e40, e41, e50, e51, e60, e70, e71, e80⟩ := index_facts t
  unfold iblk
  funext y
  show V m c main_arg3 (((cfg0.win 2).blk t).view.emb y) = V m c main_arg3 y
  have e : ((cfg0.win 2).blk t).view.emb y = y := by
    funext a
    apply Fin.ext
    match a with
    | ⟨0, _⟩ =>
      show win0_2.index t (0 : Fin 2) * 32 + 1 * (y 0).val = (y 0).val
      omega
    | ⟨1, _⟩ =>
      show win0_2.index t (1 : Fin 2) * 24 + 1 * (y 1).val = (y 1).val
      omega
  rw [e]

/-- The decoder's bias: the whole array at every point. -/
theorem iblk3_eq (c : Dev nD) (t : Fin cfg0.N) :
    (iblk m c 3 t : (⟨S24, .f32⟩ : BufTy).Contents (Elt F)) = V m c main_arg4 := by
  obtain ⟨e00, e01, e10, e11, e91, ea0, ea1, e9le, e20, e21, e30, e40, e41, e50, e51, e60, e70, e71, e80⟩ := index_facts t
  unfold iblk
  funext y
  show V m c main_arg4 (((cfg0.win 3).blk t).view.emb y) = V m c main_arg4 y
  have e : ((cfg0.win 3).blk t).view.emb y = y := by
    funext a
    apply Fin.ext
    match a with
    | ⟨0, _⟩ =>
      show win0_3.index t (0 : Fin 1) * 24 + 1 * (y 0).val = (y 0).val
      omega
  rw [e]

/-- The first layer's first three rows: the whole array at every point. -/
theorem iblk4_eq (c : Dev nD) (t : Fin cfg0.N) :
    (iblk m c 4 t : (⟨S3x96, .f32⟩ : BufTy).Contents (Elt F)) = V m c main_v0 := by
  obtain ⟨e00, e01, e10, e11, e91, ea0, ea1, e9le, e20, e21, e30, e40, e41, e50, e51, e60, e70, e71, e80⟩ := index_facts t
  unfold iblk
  funext y
  show V m c main_v0 (((cfg0.win 4).blk t).view.emb y) = V m c main_v0 y
  have e : ((cfg0.win 4).blk t).view.emb y = y := by
    funext a
    apply Fin.ext
    match a with
    | ⟨0, _⟩ =>
      show win0_4.index t (0 : Fin 2) * 3 + 1 * (y 0).val = (y 0).val
      omega
    | ⟨1, _⟩ =>
      show win0_4.index t (1 : Fin 2) * 96 + 1 * (y 1).val = (y 1).val
      omega
  rw [e]

/-- The first layer's other 128 rows: the whole array at every point. -/
theorem iblk5_eq (c : Dev nD) (t : Fin cfg0.N) :
    (iblk m c 5 t : (⟨S128x96, .f32⟩ : BufTy).Contents (Elt F)) = V m c main_v1 := by
  obtain ⟨e00, e01, e10, e11, e91, ea0, ea1, e9le, e20, e21, e30, e40, e41, e50, e51, e60, e70, e71, e80⟩ := index_facts t
  unfold iblk
  funext y
  show V m c main_v1 (((cfg0.win 5).blk t).view.emb y) = V m c main_v1 y
  have e : ((cfg0.win 5).blk t).view.emb y = y := by
    funext a
    apply Fin.ext
    match a with
    | ⟨0, _⟩ =>
      show win0_5.index t (0 : Fin 2) * 128 + 1 * (y 0).val = (y 0).val
      omega
    | ⟨1, _⟩ =>
      show win0_5.index t (1 : Fin 2) * 96 + 1 * (y 1).val = (y 1).val
      omega
  rw [e]

/-- The first layer's bias: the whole array at every point. -/
theorem iblk6_eq (c : Dev nD) (t : Fin cfg0.N) :
    (iblk m c 6 t : (⟨S96, .f32⟩ : BufTy).Contents (Elt F)) = V m c main_arg6 := by
  obtain ⟨e00, e01, e10, e11, e91, ea0, ea1, e9le, e20, e21, e30, e40, e41, e50, e51, e60, e70, e71, e80⟩ := index_facts t
  unfold iblk
  funext y
  show V m c main_arg6 (((cfg0.win 6).blk t).view.emb y) = V m c main_arg6 y
  have e : ((cfg0.win 6).blk t).view.emb y = y := by
    funext a
    apply Fin.ext
    match a with
    | ⟨0, _⟩ =>
      show win0_6.index t (0 : Fin 1) * 96 + 1 * (y 0).val = (y 0).val
      omega
  rw [e]

/-- The second layer's weights: the whole array at every point. -/
theorem iblk7_eq (c : Dev nD) (t : Fin cfg0.N) :
    (iblk m c 7 t : (⟨S96x64, .f32⟩ : BufTy).Contents (Elt F)) = V m c main_arg7 := by
  obtain ⟨e00, e01, e10, e11, e91, ea0, ea1, e9le, e20, e21, e30, e40, e41, e50, e51, e60, e70, e71, e80⟩ := index_facts t
  unfold iblk
  funext y
  show V m c main_arg7 (((cfg0.win 7).blk t).view.emb y) = V m c main_arg7 y
  have e : ((cfg0.win 7).blk t).view.emb y = y := by
    funext a
    apply Fin.ext
    match a with
    | ⟨0, _⟩ =>
      show win0_7.index t (0 : Fin 2) * 96 + 1 * (y 0).val = (y 0).val
      omega
    | ⟨1, _⟩ =>
      show win0_7.index t (1 : Fin 2) * 64 + 1 * (y 1).val = (y 1).val
      omega
  rw [e]

/-- The second layer's bias: the whole array at every point. -/
theorem iblk8_eq (c : Dev nD) (t : Fin cfg0.N) :
    (iblk m c 8 t : (⟨S64, .f32⟩ : BufTy).Contents (Elt F)) = V m c main_arg8 := by
  obtain ⟨e00, e01, e10, e11, e91, ea0, ea1, e9le, e20, e21, e30, e40, e41, e50, e51, e60, e70, e71, e80⟩ := index_facts t
  unfold iblk
  funext y
  show V m c main_arg8 (((cfg0.win 8).blk t).view.emb y) = V m c main_arg8 y
  have e : ((cfg0.win 8).blk t).view.emb y = y := by
    funext a
    apply Fin.ext
    match a with
    | ⟨0, _⟩ =>
      show win0_8.index t (0 : Fin 1) * 64 + 1 * (y 0).val = (y 0).val
      omega
  rw [e]

/-! ## The output blocks cover the output arrays -/

/-- An index of the array is in point `t`'s block iff each coordinate is in the block's range on its axis. -/
theorem mem_blk9 (t : Fin cfg0.N) (i : S100000x24.Idx) :
    i ∈ ((cfg0.win 9).blk t).view.set ↔ ∀ a : Fin 2, win0_9.index t a * S5000x24.size a ≤ (i a).val
      ∧ (i a).val < win0_9.index t a * S5000x24.size a + S5000x24.size a := by
  show i ∈ ((View.whole main_v2_0).slice (win0_9.rect t)).set ↔ _
  rw [View.set_slice_whole, Rect.mem_set_unit]
  exact Iff.rfl

/-- Every index of the array is written back by some point: the one whose block index is the row divided by 5000. -/
theorem cover9 : ∀ i : S100000x24.Idx, ∃ t : Fin cfg0.N, (cfg0.win 9).flush t = true ∧ i ∈ ((cfg0.win 9).blk t).view.set := by
  intro i
  have hi0 : (i 0).val < 100000 := (i 0).isLt
  have hi1 : (i 1).val < 24 := (i 1).isLt
  obtain ⟨t, ht⟩ := index_onto9 ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk9]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 24 ≤ (i 1).val ∧ (i 1).val < win0_9.index t (1 : Fin 2) * 24 + 24
    omega

/-- An index of the array is in point `t`'s block iff each coordinate is in the block's range on its axis. -/
theorem mem_blk10 (t : Fin cfg0.N) (i : S100000x512.Idx) :
    i ∈ ((cfg0.win 10).blk t).view.set ↔ ∀ a : Fin 2, win0_10.index t a * S5000x512.size a ≤ (i a).val
      ∧ (i a).val < win0_10.index t a * S5000x512.size a + S5000x512.size a := by
  show i ∈ ((View.whole main_v2_1).slice (win0_10.rect t)).set ↔ _
  rw [View.set_slice_whole, Rect.mem_set_unit]
  exact Iff.rfl

/-- Every index of the array is written back by some point: the one whose block index is the row divided by 5000. -/
theorem cover10 : ∀ i : S100000x512.Idx, ∃ t : Fin cfg0.N, (cfg0.win 10).flush t = true ∧ i ∈ ((cfg0.win 10).blk t).view.set := by
  intro i
  have hi0 : (i 0).val < 100000 := (i 0).isLt
  have hi1 : (i 1).val < 512 := (i 1).isLt
  obtain ⟨t, ht⟩ := index_onto10 ⟨(i 0).val / 5000, by omega⟩
  have q0 : win0_10.index t (0 : Fin 2) = (i 0).val / 5000 := congrFun ht 0
  have q1 : win0_10.index t (1 : Fin 2) = 0 := congrFun ht 1
  refine ⟨t, flush0_10 t, ?_⟩
  rw [mem_blk10]
  intro a
  match a with
  | ⟨0, _⟩ =>
    show win0_10.index t (0 : Fin 2) * 5000 ≤ (i 0).val ∧ (i 0).val < win0_10.index t (0 : Fin 2) * 5000 + 5000
    omega
  | ⟨1, _⟩ =>
    show win0_10.index t (1 : Fin 2) * 512 ≤ (i 1).val ∧ (i 1).val < win0_10.index t (1 : Fin 2) * 512 + 512
    omega

end Cert.KernelIdeal.Region

end
-- ==== Proof.HostSide.lean ====
/-
  What the host operations around the region contribute.

  Before the region the first layer's weight matrix `[131, 96]` is cut into its first three rows and its other 128
  rows; the region finds the two cuts in the buffers of its fifth and sixth windows. After the region its two output
  arrays `[100000, 24]` and `[100000, 512]` are reshaped to `[800000, 3]` and `[800000, 64]`, and the batch vector is
  repeated eight times per point and flattened. The run is re-posted with these three results and the nine arguments
  named.
-/
import proofs.«141552_j45389214384422_2_alg».proof.Proof.Gen.KernelIdeal.Frame
import Idealize.ShloMosaic.Lib.StableHlo.Run
import Idealize.ShloMosaic.Lib.Pipeline.Value
import Idealize.ShloMosaic.Lib.Pipeline.FrameSuffix
import Idealize.ShloMosaic.PureOps.Ideal
import Idealize.ShloMosaic.Lib.ValueIdx

noncomputable section

namespace Cert.KernelIdeal.Region

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## Before the region: the two cuts of the first layer's weights -/

/-- The first three rows. -/
theorem V_w1a (c : Dev nD) :
    (V (F := Ideal) m c main_v0 : S3x96.Idx → EReal)
      = extractStridedSlice S3x96 ![0, 0] (m ((c : Thread nD τ).loc main_arg5)) slices_S131x96_S3x96_0_0 := by
  show StableHlo.after hostOps0 (fun b => m (c, b)) (Proc.devRef .tc main_v0) = _
  after_results

/-- The other 128 rows. -/
theorem V_w1b (c : Dev nD) :
    (V (F := Ideal) m c main_v1 : S128x96.Idx → EReal)
      = extractStridedSlice S128x96 ![3, 0] (m ((c : Thread nD τ).loc main_arg5)) slices_S131x96_S128x96_3_0 := by
  show StableHlo.after hostOps0 (fun b => m (c, b)) (Proc.devRef .tc main_v1) = _
  after_results

/-! ## After the region -/

/-- The first output array, reshaped. -/
theorem tail_v3 (c : Dev nD) :
    (Pipeline.afterTail₀ cfgs (dats (F := Ideal) m) 0 (V0 m) [hostOps1] c main_v3 : S800000x3.Idx → EReal)
      = shapeCast S800000x3 ((dats (F := Ideal) m 0 c).arrAt 9 cfg0.N : S100000x24.Idx → EReal)
          shapeCasts_S100000x24_S800000x3 := by
  unfold Pipeline.afterTail₀
  show StableHlo.after hostOps1 _ (Proc.devRef .tc main_v3) = _
  after_results
  have e : Pipeline.withArrays (cfgs 0).spec c (V0 m c) (fun w => (dats (F := Ideal) m 0 c).arrAt w (cfgs 0).N)
      (Proc.devRef .tc main_v2_0) = (dats (F := Ideal) m 0 c).arrAt 9 cfg0.N :=
    Pipeline.withArrays_arr spec0 launch0.win.arr_inj c _ _ 9
  rw [e]
  rfl

/-- The second output array, reshaped. -/
theorem tail_v4 (c : Dev nD) :
    (Pipeline.afterTail₀ cfgs (dats (F := Ideal) m) 0 (V0 m) [hostOps1] c main_v4 : S800000x64.Idx → EReal)
      = shapeCast S800000x64 ((dats (F := Ideal) m 0 c).arrAt 10 cfg0.N : S100000x512.Idx → EReal)
          shapeCasts_S100000x512_S800000x64 := by
  unfold Pipeline.afterTail₀
  show StableHlo.after hostOps1 _ (Proc.devRef .tc main_v4) = _
  after_results
  have e : Pipeline.withArrays (cfgs 0).spec c (V0 m c) (fun w => (dats (F := Ideal) m 0 c).arrAt w (cfgs 0).N)
      (Proc.devRef .tc main_v2_1) = (dats (F := Ideal) m 0 c).arrAt 10 cfg0.N :=
    Pipeline.withArrays_arr spec0 launch0.win.arr_inj c _ _ 10
  rw [e]
  rfl

/-- The batch vector, each entry repeated eight times. -/
theorem tail_v6 (c : Dev nD) :
    (Pipeline.afterTail₀ cfgs (dats (F := Ideal) m) 0 (V0 m) [hostOps1] c main_v6 : (⟨S800000, .i32⟩ : BufTy).Contents (Elt Ideal))
      = shapeCast S800000 (broadcastInDim S100000x8 ![0] bcast_S100000_S100000x8_0
          (m ((c : Thread nD τ).loc main_arg2) : (⟨S100000, .i32⟩ : BufTy).Contents (Elt Ideal))) shapeCasts_S100000x8_S800000 := by
  unfold Pipeline.afterTail₀
  show StableHlo.after hostOps1 _ (Proc.devRef .tc main_v6) = _
  after_results
  have e : Pipeline.withArrays (cfgs 0).spec c (V0 m c) (fun w => (dats (F := Ideal) m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  rw [e]
  rfl

/-! ## The run, with the three results and the nine arguments named -/

theorem run_named : θ_run defs (onTc (τ := τ) (main (F := Ideal))) ⟨m, fun _ => 0, ρ⟩ (fun r => ∀ c : Dev nD,
      r.2.mem ((c.tc : Thread nD τ).loc main_v3)
        = shapeCast S800000x3 ((dats (F := Ideal) m 0 c).arrAt 9 cfg0.N : S100000x24.Idx → EReal) shapeCasts_S100000x24_S800000x3
      ∧ r.2.mem ((c.tc : Thread nD τ).loc main_v4)
        = shapeCast S800000x64 ((dats (F := Ideal) m 0 c).arrAt 10 cfg0.N : S100000x512.Idx → EReal) shapeCasts_S100000x512_S800000x64
      ∧ r.2.mem ((c.tc : Thread nD τ).loc main_v6)
        = shapeCast S800000 (broadcastInDim S100000x8 ![0] bcast_S100000_S100000x8_0
            (m ((c : Thread nD τ).loc main_arg2) : (⟨S100000, .i32⟩ : BufTy).Contents (Elt Ideal))) shapeCasts_S100000x8_S800000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v3 (Pipeline.mem_restRefs_of main_v3 (by decide) (by decide))).trans (tail_v3 m c),
      ((h c).2 main_v4 (Pipeline.mem_restRefs_of main_v4 (by decide) (by decide))).trans (tail_v4 m c),
      ((h c).2 main_v6 (Pipeline.mem_restRefs_of main_v6 (by decide) (by decide))).trans (tail_v6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Region

end
-- ==== Proof.ArrayValue.lean ====
/-
  From blocks to arrays.

  Grid point `t` works on rows `5000 t …` of the features and of the points and writes rows `5000 t …` of the two
  output arrays. Both outputs are row local, so what a point writes back is its block of rows of the specification's
  function of the WHOLE argument arrays; the twenty blocks tile the output arrays, which therefore end holding that
  function. The small arrays are read whole at every point; two of them are the cuts of the first layer's weights made
  before the region.
-/
import proofs.«141552_j45389214384422_2_alg».proof.Proof.BlockOut
import proofs.«141552_j45389214384422_2_alg».proof.Proof.Blocks
import proofs.«141552_j45389214384422_2_alg».proof.Proof.HostSide

noncomputable section

namespace Cert.KernelIdeal.Whole

open Idealize.ShloMosaic Idealize.ShloMosaic.ValueIdx Idealize.ShloMosaic.TcCoe Idealize.SL.Sem
open Cert.KernelIdeal Cert.KernelIdeal.Gen Cert.KernelIdeal.Block Cert.KernelIdeal.Region Cert.Decoder

variable (m : (ℓ : Loc nD τ sig) → Buf (Elt Ideal) ℓ)

/-- Output one, flat, of the arrays as the region finds them. -/
abbrev ptsOf (c : Dev nD) : Mat 100000 24 :=
  pointsFlat (R := 100000) halfW (V m c main_arg0) (V m c main_arg1) (V m c main_arg3) (V m c main_arg4)

/-- Output two, flat, of the arrays as the region finds them. -/
abbrev featsOf (c : Dev nD) : Mat 100000 512 :=
  featsFlat (R := 100000) zeroW (V m c main_arg1) (V m c main_arg3) (V m c main_arg4) (V m c main_v0) (V m c main_v1)
    (V m c main_arg6) (V m c main_arg7) (V m c main_arg8)

/-- WHAT POINT `t` WRITES BACK to the first output is its block of rows of `ptsOf`. -/
theorem flushed9_eq (c : Dev nD) (t : Fin cfg0.N) :
    (dats m 0 c).flushed 9 t = ((cfg0.win 9).blk t).view.read (Elt Ideal) (ptsOf m c) := by
  show (cfg0.win 9).cut (grid0.coords t) ((dats m 0 c).after 9 t) = _
  rw [after0_9, out9_eq]
  funext j
  obtain ⟨p, k, rfl⟩ : ∃ (p : Fin 5000) (k : Fin 24), j = ix2 p k := ⟨j 0, j 1, eq_ix2 j⟩
  show pointsFlat (R := 5000) halfW (iblk m c 1 t) (iblk m c 0 t) (iblk m c 2 t) (iblk m c 3 t) (ix2 p k)
    = ptsOf m c (((cfg0.win 9).blk t).view.emb (ix2 p k))
  rw [emb9 t p k]
  rw [iblk2_eq m c t, iblk3_eq m c t]
  exact pointsFlat_congr (V m c main_arg1) (iblk m c 0 t) (rowAt t p) p (fun k' => iblk0_apply m c t p k') halfW
    (V m c main_arg0) (iblk m c 1 t) (fun d => iblk1_apply m c t p d) _ _ k

/-- WHAT POINT `t` WRITES BACK to the second output is its block of rows of `featsOf`. -/
theorem flushed10_eq (c : Dev nD) (t : Fin cfg0.N) :
    (dats m 0 c).flushed 10 t = ((cfg0.win 10).blk t).view.read (Elt Ideal) (featsOf m c) := by
  show (cfg0.win 10).cut (grid0.coords t) ((dats m 0 c).after 10 t) = _
  rw [after0_10, out10_eq]
  funext j
  obtain ⟨p, q, rfl⟩ : ∃ (p : Fin 5000) (q : Fin 512), j = ix2 p q := ⟨j 0, j 1, eq_ix2 j⟩
  show featsFlat (R := 5000) zeroW (iblk m c 0 t) (iblk m c 2 t) (iblk m c 3 t) (iblk m c 4 t) (iblk m c 5 t)
      (iblk m c 6 t) (iblk m c 7 t) (iblk m c 8 t) (ix2 p q)
    = featsOf m c (((cfg0.win 10).blk t).view.emb (ix2 p q))
  rw [emb10 t p q]
  rw [iblk2_eq m c t, iblk3_eq m c t, iblk4_eq m c t, iblk5_eq m c t, iblk6_eq m c t, iblk7_eq m c t, iblk8_eq m c t]
  exact featsFlat_congr (V m c main_arg1) (iblk m c 0 t) (rowAt t p) p (fun k' => iblk0_apply m c t p k') zeroW
    _ _ _ _ _ _ _ q

/-- THE FIRST OUTPUT ARRAY after the run. -/
theorem final9 (c : Dev nD) :
    ((dats m 0 c).arrAt 9 cfg0.N : S100000x24.Idx → EReal)
      = pointsFlat (R := 100000) halfW (m ((c : Thread nD τ).loc main_arg0)) (m ((c : Thread nD τ).loc main_arg1))
          (m ((c : Thread nD τ).loc main_arg3)) (m ((c : Thread nD τ).loc main_arg4)) := by
  refine ((dats m 0 c).arrAt_eq_of_cover 9 (ptsOf m c) (fun t _ => flushed9_eq m c t) cover9).trans ?_
  unfold ptsOf
  rw [V_main_arg0, V_main_arg1, V_main_arg3, V_main_arg4]

/-- THE SECOND OUTPUT ARRAY after the run. -/
theorem final10 (c : Dev nD) :
    ((dats m 0 c).arrAt 10 cfg0.N : S100000x512.Idx → EReal)
      = featsFlat (R := 100000) zeroW (m ((c : Thread nD τ).loc main_arg1)) (m ((c : Thread nD τ).loc main_arg3))
          (m ((c : Thread nD τ).loc main_arg4))
          (extractStridedSlice S3x96 ![0, 0] (m ((c : Thread nD τ).loc main_arg5)) slices_S131x96_S3x96_0_0)
          (extractStridedSlice S128x96 ![3, 0] (m ((c : Thread nD τ).loc main_arg5)) slices_S131x96_S128x96_3_0)
          (m ((c : Thread nD τ).loc main_arg6)) (m ((c : Thread nD τ).loc main_arg7)) (m ((c : Thread nD τ).loc main_arg8)) := by
  refine ((dats m 0 c).arrAt_eq_of_cover 10 (featsOf m c) (fun t _ => flushed10_eq m c t) cover10).trans ?_
  unfold featsOf
  rw [V_main_arg1, V_main_arg3, V_main_arg4, V_main_arg6, V_main_arg7, V_main_arg8, V_w1a m c, V_w1b m c]

variable (ρ : Dev nD → PrngReg)

/-- THE RUN: every weakly fair execution ends with the three results at the specification's functions of the argument
    arrays — the two float results the reshapes of the flat outputs, the third the batch vector repeated — and the
    arguments unchanged. -/
theorem run : θ_run defs (onTc (τ := τ) (main (F := Ideal))) ⟨m, fun _ => 0, ρ⟩ (fun r => ∀ c : Dev nD,
      r.2.mem ((c.tc : Thread nD τ).loc main_v3)
        = shapeCast S800000x3 (pointsFlat (R := 100000) halfW (m ((c : Thread nD τ).loc main_arg0))
            (m ((c : Thread nD τ).loc main_arg1)) (m ((c : Thread nD τ).loc main_arg3))
            (m ((c : Thread nD τ).loc main_arg4))) shapeCasts_S100000x24_S800000x3
      ∧ r.2.mem ((c.tc : Thread nD τ).loc main_v4)
        = shapeCast S800000x64 (featsFlat (R := 100000) zeroW (m ((c : Thread nD τ).loc main_arg1))
            (m ((c : Thread nD τ).loc main_arg3)) (m ((c : Thread nD τ).loc main_arg4))
            (extractStridedSlice S3x96 ![0, 0] (m ((c : Thread nD τ).loc main_arg5)) slices_S131x96_S3x96_0_0)
            (extractStridedSlice S128x96 ![3, 0] (m ((c : Thread nD τ).loc main_arg5)) slices_S131x96_S128x96_3_0)
            (m ((c : Thread nD τ).loc main_arg6)) (m ((c : Thread nD τ).loc main_arg7))
            (m ((c : Thread nD τ).loc main_arg8))) shapeCasts_S100000x512_S800000x64
      ∧ r.2.mem ((c.tc : Thread nD τ).loc main_v6)
        = shapeCast S800000 (broadcastInDim S100000x8 ![0] bcast_S100000_S100000x8_0
            (m ((c : Thread nD τ).loc main_arg2) : (⟨S100000, .i32⟩ : BufTy).Contents (Elt Ideal))) shapeCasts_S100000x8_S800000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c).1.trans (congrArg (fun X => shapeCast S800000x3 X shapeCasts_S100000x24_S800000x3) (final9 m c)),
      (h c).2.1.trans (congrArg (fun X => shapeCast S800000x64 X shapeCasts_S100000x512_S800000x64) (final10 m c)),
      (h c).2.2⟩)
    (run_named m ρ)

end Cert.KernelIdeal.Whole

end
-- ==== Proof.RefValue.lean ====
/-
  The reference program's two float results as the decoder functions of the specification.

  Write `r` for a row of an `[800000, ·]` result, `n = r / 8` for its point and `k = r % 8` for its neighbour.
  The decoded offsets `[100000, 24]` are reshaped to `[800000, 3]`: element `(r, d)` is at flat position `3 r + d`, that is
  at `(n, 3 k + d)`. Result one adds half of it to the point `n` repeated; the flat `[100000, 24]` form of the
  specification reshapes to it by the same row-major rule. Result two joins the three offsets with the last 128
  features of point `n`, so the first layer's sum over the 131 joined columns splits into a sum over the three
  offsets (the first three rows of the weight matrix) and a sum over the 128 features (its other rows).
-/
import proofs.«141552_j45389214384422_2_alg».proof.Proof.Gen.ReferenceIdeal.Read
import proofs.«141552_j45389214384422_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-! ## The decoded offsets -/

/-- The affine map of the first 32 features: the program's sum is the specification's, index by index. -/
theorem v5_eq_offs (a1 : FVec Ideal S100000x160 .f32) (a3 : FVec Ideal S32x24 .f32) (a4 : FVec Ideal S24 .f32)
    (j : S100000x24.Idx) :
    Read.val_main_v5 (F := Ideal) a1 a3 a4 j = Cert.Decoder.offs (R := 100000) a1 a3 a4 (j 0) (j 1) := by
  rw [Read.val_main_v5_apply, Read.val_main_v2_apply, Read.val_main_v4_apply, Read.val_main_v3_apply]
  unfold Cert.Decoder.offs
  show (∑ k : Fin 32, _) + _ = (∑ k : Fin 32, _) + _
  congr 1
  · refine Finset.sum_congr rfl fun k _ => ?_
    rw [Read.val_main_v0_apply]
    have el : Read.idx_main_v0 (Read.lidx_main_v2 j k) = ix2 (j 0) (Cert.Decoder.head k) := by
      funext a
      match a with
      | ⟨0, _⟩ => rfl
      | ⟨1, _⟩ => rfl
    have er : Read.ridx_main_v2 j k = ix2 k (j 1) := by
      funext a
      match a with
      | ⟨0, _⟩ => rfl
      | ⟨1, _⟩ => rfl
    rw [el, er]
    rfl
  · have e : Read.idx_main_v3 (Read.idx_main_v4 j) = ix1 (j 1) := by
      funext a
      match a with
      | ⟨0, _⟩ => rfl
    rw [e]
    rfl

/-! ## Result one -/

theorem points_eq (a0 : FVec Ideal S100000x3 .f32) (a1 : FVec Ideal S100000x160 .f32) (a3 : FVec Ideal S32x24 .f32)
    (a4 : FVec Ideal S24 .f32) (hc : (⟨2, ![100000, 24]⟩ : Shape).ShapeCasts ⟨2, ![800000, 3]⟩) :
    Read.val_main_v26 (F := Ideal) a0 a1 a3 a4
      = shapeCast ⟨2, ![800000, 3]⟩ (Cert.Decoder.pointsFlat (R := 100000)
          (FloatOps.ofBits (F := Ideal) .f32 0x3F000000#32) a0 a1 a3 a4) hc := by
  funext i
  have h0 : (i 0).val < 800000 := (i 0).isLt
  have h1 : (i 1).val < 3 := (i 1).isLt
  refine Eq.trans ?_ (shapeCast_apply _ hc i (Read.idx_main_v6 i)
    (by rewrite [Shape.rowMajor_val_two, Shape.rowMajor_val_two]
        show ((i 0).val * 3 + (i 1).val) / 24 * 24 + ((i 0).val * 3 + (i 1).val) % 24 = (i 0).val * 3 + (i 1).val
        omega)).symm
  rw [Read.val_main_v26_apply, Read.val_main_v23_apply, Read.val_main_v22_apply, Read.val_main_v25_apply,
    Read.val_main_v6_apply, Read.val_main_v24_apply, Read.val_main_cst_apply, v5_eq_offs]
  unfold Cert.Decoder.pointsFlat
  have e : Read.idx_main_v22 (Read.idx_main_v23 i)
      = ix2 (Read.idx_main_v6 i 0) (Cert.Decoder.coord (Read.idx_main_v6 i 1)) := by
    funext a
    apply Fin.ext
    match a with
    | ⟨0, _⟩ => rfl
    | ⟨1, _⟩ =>
      show ((i 0).val * 3 + (i 1).val) % 3 = ((i 0).val * 3 + (i 1).val) % 24 % 3
      omega
  rw [e]
  rfl

/-! ## Result two -/

/-- The point a row of the eightfold-repeated arrays belongs to. -/
abbrev rowN (r : Fin 800000) : Fin 100000 := ⟨r.val / 8, by have := r.isLt; omega⟩
/-- The neighbour a row of the eightfold-repeated arrays belongs to. -/
abbrev rowK (r : Fin 800000) : Fin 8 := ⟨r.val % 8, Nat.mod_lt _ (by decide)⟩

/-- A joined row at one of its first three columns: the reshaped decoded offset, coordinate `d` of neighbour `r % 8`
    of point `r / 8`. -/
theorem v11_left (a1 : FVec Ideal S100000x160 .f32) (a3 : FVec Ideal S32x24 .f32) (a4 : FVec Ideal S24 .f32)
    (r : S800000x96.Idx) (d : Fin 3) :
    Read.val_main_v11 (F := Ideal) a1 a3 a4 (Read.lidx_main_v12 r (Fin.castAdd 128 d))
      = Cert.Decoder.offs (R := 100000) a1 a3 a4 (rowN (r 0)) (Cert.Decoder.pos (rowK (r 0)) d) := by
  have h0 : (r 0).val < 800000 := (r 0).isLt
  have hd : d.val < 3 := d.isLt
  unfold Read.val_main_v11
  refine (concatenate_pair_apply_left (t := S800000x131) (s₁ := S800000x3) (s₂ := S800000x128) 1 _ _ _
    (Read.lidx_main_v12 r (Fin.castAdd 128 d)) rfl (ix2 (r 0) d) (fun b => by
      match b with
      | ⟨0, _⟩ => rfl
      | ⟨1, _⟩ => rfl)).trans ?_
  rw [Read.val_main_v6_apply, v5_eq_offs]
  have e0 : Read.idx_main_v6 (ix2 (r 0) d) 0 = rowN (r 0) :=
    Fin.ext (by show ((r 0).val * 3 + d.val) / 24 = (r 0).val / 8; omega)
  have e1 : Read.idx_main_v6 (ix2 (r 0) d) 1 = Cert.Decoder.pos (rowK (r 0)) d :=
    Fin.ext (by show ((r 0).val * 3 + d.val) % 24 = 3 * ((r 0).val % 8) + d.val; omega)
  rw [e0, e1]

/-- A joined row at one of its last 128 columns: that feature of the last 128 of point `r / 8`. -/
theorem v11_right (a1 : FVec Ideal S100000x160 .f32) (a3 : FVec Ideal S32x24 .f32) (a4 : FVec Ideal S24 .f32)
    (r : S800000x96.Idx) (f : Fin 128) :
    Read.val_main_v11 (F := Ideal) a1 a3 a4 (Read.lidx_main_v12 r (Fin.natAdd 3 f))
      = a1 (ix2 (rowN (r 0)) (Cert.Decoder.tail f)) := by
  have h0 : (r 0).val < 800000 := (r 0).isLt
  have hf : f.val < 128 := f.isLt
  unfold Read.val_main_v11
  refine (concatenate_pair_apply_right (t := S800000x131) (s₁ := S800000x3) (s₂ := S800000x128) 1 _ _ _
    (Read.lidx_main_v12 r (Fin.natAdd 3 f)) rfl rfl (ix2 (r 0) f) (fun b hb => by
      match b with
      | ⟨0, _⟩ => rfl
      | ⟨1, _⟩ => exact absurd rfl hb) (by show f.val + 3 = 3 + f.val; omega)).trans ?_
  rw [Read.val_main_v10_apply, Read.val_main_v9_apply, Read.val_main_v1_apply]
  have e : Read.idx_main_v1 (Read.idx_main_v9 (Read.idx_main_v10 (ix2 (r 0) f)))
      = ix2 (rowN (r 0)) (Cert.Decoder.tail f) := by
    funext a
    apply Fin.ext
    match a with
    | ⟨0, _⟩ => show ((r 0).val * 128 + f.val) / 1024 = (r 0).val / 8; omega
    | ⟨1, _⟩ => show 32 + ((r 0).val * 128 + f.val) % 128 = 32 + f.val; omega
  rw [e]

/-- The first layer: the sum over the 131 joined columns is the sum over the three offsets plus the sum over the
    128 features, and the bias moves inside the shared part. -/
theorem v16_eq_hidden (a1 : FVec Ideal S100000x160 .f32) (a3 : FVec Ideal S32x24 .f32) (a4 : FVec Ideal S24 .f32)
    (a5 : FVec Ideal S131x96 .f32) (a6 : FVec Ideal S96 .f32)
    (hs0 : S131x96.Slices ![0, 0] ⟨2, ![3, 96]⟩) (hs3 : S131x96.Slices ![3, 0] ⟨2, ![128, 96]⟩) (r : S800000x96.Idx) :
    Read.val_main_v16 (F := Ideal) a1 a3 a4 a5 a6 r
      = Cert.Decoder.hidden (R := 100000) (FloatOps.ofBits (F := Ideal) .f32 0x00000000#32) a1 a3 a4
          (extractStridedSlice ⟨2, ![3, 96]⟩ ![0, 0] a5 hs0) (extractStridedSlice ⟨2, ![128, 96]⟩ ![3, 0] a5 hs3) a6
          (rowN (r 0)) (rowK (r 0)) (r 1) := by
  rw [Read.val_main_v16_apply, Read.val_main_v15_apply, Read.val_main_v12_apply, Read.val_main_v14_apply,
    Read.val_main_v13_apply, Read.val_main_call0_v0_apply, Read.val_main_call0_cst_apply]
  unfold Cert.Decoder.hidden Cert.Decoder.shared
  show max ((∑ k : Fin 131, _) + _) _ = max ((∑ d : Fin 3, _) + ((∑ f : Fin 128, _) + _)) _
  congr 1
  rw [← add_assoc]
  congr 1
  · refine (Fin.sum_univ_add (M := EReal) (a := 3) (b := 128) _).trans ?_
    congr 1
    · refine Finset.sum_congr rfl fun d _ => ?_
      have hd : d.val < 3 := d.isLt
      have e : Read.ridx_main_v12 r (Fin.castAdd 128 d) = ix2 (⟨d.val, by omega⟩ : Fin 131) (r 1) := by
        funext a
        match a with
        | ⟨0, _⟩ => rfl
        | ⟨1, _⟩ => rfl
      rw [v11_left, e, slice2_axis0_apply 0 a5 hs0 d (r 1) ⟨d.val, by omega⟩ (by show d.val = 0 + d.val; omega)]
      rfl
    · refine Finset.sum_congr rfl fun f _ => ?_
      have hf : f.val < 128 := f.isLt
      have e : Read.ridx_main_v12 r (Fin.natAdd 3 f) = ix2 (⟨3 + f.val, by omega⟩ : Fin 131) (r 1) := by
        funext a
        match a with
        | ⟨0, _⟩ => rfl
        | ⟨1, _⟩ => rfl
      rw [v11_right, e, slice2_axis0_apply 3 a5 hs3 f (r 1) ⟨3 + f.val, by omega⟩ rfl]
      rfl
  · have e : Read.idx_main_v13 (Read.idx_main_v14 r) = ix1 (r 1) := by
      funext a
      match a with
      | ⟨0, _⟩ => rfl
    rw [e]
    rfl

/-- The index of the flat `[100000, 512]` array with the row-major position of `i` in `[800000, 64]`. -/
abbrev idxFlat (i : S800000x64.Idx) : (⟨2, ![100000, 512]⟩ : Shape).Idx := fun a => match a with
  | ⟨0, _⟩ => ⟨((i 0).val * 64 + (i 1).val) / 512, by
      have h0 : (i 0).val < 800000 := (i 0).isLt; have h1 : (i 1).val < 64 := (i 1).isLt
      show ((i 0).val * 64 + (i 1).val) / 512 < 100000; omega⟩
  | ⟨1, _⟩ => ⟨((i 0).val * 64 + (i 1).val) % 512, by
      show ((i 0).val * 64 + (i 1).val) % 512 < 512; omega⟩

theorem feats_eq (a1 : FVec Ideal S100000x160 .f32) (a3 : FVec Ideal S32x24 .f32) (a4 : FVec Ideal S24 .f32)
    (a5 : FVec Ideal S131x96 .f32) (a6 : FVec Ideal S96 .f32) (a7 : FVec Ideal S96x64 .f32) (a8 : FVec Ideal S64 .f32)
    (hs0 : S131x96.Slices ![0, 0] ⟨2, ![3, 96]⟩) (hs3 : S131x96.Slices ![3, 0] ⟨2, ![128, 96]⟩)
    (hc : (⟨2, ![100000, 512]⟩ : Shape).ShapeCasts ⟨2, ![800000, 64]⟩) :
    Read.val_main_v21 (F := Ideal) a1 a3 a4 a5 a6 a7 a8
      = shapeCast ⟨2, ![800000, 64]⟩ (Cert.Decoder.featsFlat (R := 100000)
          (FloatOps.ofBits (F := Ideal) .f32 0x00000000#32) a1 a3 a4
          (extractStridedSlice ⟨2, ![3, 96]⟩ ![0, 0] a5 hs0) (extractStridedSlice ⟨2, ![128, 96]⟩ ![3, 0] a5 hs3)
          a6 a7 a8) hc := by
  funext i
  have h0 : (i 0).val < 800000 := (i 0).isLt
  have h1 : (i 1).val < 64 := (i 1).isLt
  refine Eq.trans ?_ (shapeCast_apply _ hc i (idxFlat i)
    (by rewrite [Shape.rowMajor_val_two, Shape.rowMajor_val_two]
        show ((i 0).val * 64 + (i 1).val) / 512 * 512 + ((i 0).val * 64 + (i 1).val) % 512 = (i 0).val * 64 + (i 1).val
        omega)).symm
  rw [Read.val_main_v21_apply, Read.val_main_v20_apply, Read.val_main_v17_apply, Read.val_main_v19_apply,
    Read.val_main_v18_apply, Read.val_main_call1_v0_apply, Read.val_main_call1_cst_apply]
  unfold Cert.Decoder.featsFlat Cert.Decoder.outer
  have en : rowN (i 0) = idxFlat i 0 :=
    Fin.ext (by show (i 0).val / 8 = ((i 0).val * 64 + (i 1).val) / 512; omega)
  have ek : rowK (i 0) = Cert.Decoder.nbr (idxFlat i 1) :=
    Fin.ext (by show (i 0).val % 8 = ((i 0).val * 64 + (i 1).val) % 512 / 64; omega)
  have eo : i 1 = Cert.Decoder.chan (idxFlat i 1) :=
    Fin.ext (by show (i 1).val = ((i 0).val * 64 + (i 1).val) % 512 % 64; omega)
  show max ((∑ h : Fin 96, _) + _) _ = max ((∑ h : Fin 96, _) + _) _
  congr 1
  congr 1
  · refine Finset.sum_congr rfl fun h _ => ?_
    have er : Read.ridx_main_v17 i h = ix2 h (Cert.Decoder.chan (idxFlat i 1)) := by
      funext a
      match a with
      | ⟨0, _⟩ => rfl
      | ⟨1, _⟩ => exact eo
    rw [v16_eq_hidden a1 a3 a4 a5 a6 hs0 hs3, er]
    show Cert.Decoder.hidden _ a1 a3 a4 _ _ a6 (rowN (i 0)) (rowK (i 0)) h * _ = _
    rw [en, ek]
  · have e : Read.idx_main_v18 (Read.idx_main_v19 i) = ix1 (Cert.Decoder.chan (idxFlat i 1)) := by
      funext a
      match a with
      | ⟨0, _⟩ => exact eo
    rw [e]

end Cert.ReferenceIdeal.RefValue

end
-- ==== Proof.lean ====
/-
  The certificate of the neighbourhood decoder.

  The kernel and the reference compute, for each of 100000 points, eight new points and eight rows of 64 features.
  On the extended reals both are the functions of Proof/Spec.lean. The reference joins the three decoded offsets of a
  neighbour with the point's 128 features and multiplies the joined row with the whole first weight matrix; the kernel
  multiplies the offsets with the first three rows of that matrix and the features with the other 128 rows, once per
  point, and adds the bias to the second product. The two agree because a sum over 131 = 3 + 128 columns is the sum
  of the two partial sums and addition is associative: no step moves a factor across a sum or cancels, so the
  finiteness of the inputs is never used. The kernel lays the eight neighbours of a point side by side in one flat row
  and reshapes afterwards; the reference repeats the rows first. Both orders reach the same element by the row-major
  rule. The third result, the batch vector repeated eight times, is computed by the same two host operations in both
  programs.

  The frames are the generated ones (the reference's is its generated run with the results dropped); the kernel is
  its own idealization, so nothing is owed for it.
-/
import proofs.«141552_j45389214384422_2_alg».proof.Defs
import proofs.«141552_j45389214384422_2_alg».proof.Proof.Gen.Kernel
import proofs.«141552_j45389214384422_2_alg».proof.Proof.Gen.Kernel.Skeleton
import proofs.«141552_j45389214384422_2_alg».proof.Proof.Gen.Kernel.Launch
import proofs.«141552_j45389214384422_2_alg».proof.Proof.Gen.Kernel.Points
import proofs.«141552_j45389214384422_2_alg».proof.Proof.Gen.Kernel.Frame
import proofs.«141552_j45389214384422_2_alg».proof.Proof.Gen.KernelIdeal
import proofs.«141552_j45389214384422_2_alg».proof.Proof.Gen.KernelIdeal.Skeleton
import proofs.«141552_j45389214384422_2_alg».proof.Proof.Gen.KernelIdeal.Launch
import proofs.«141552_j45389214384422_2_alg».proof.Proof.Gen.KernelIdeal.Points
import proofs.«141552_j45389214384422_2_alg».proof.Proof.Gen.KernelIdeal.Frame
import proofs.«141552_j45389214384422_2_alg».proof.Proof.Gen.ReferenceIdeal
import proofs.«141552_j45389214384422_2_alg».proof.Proof.Gen.Pre_finite_inputs
import proofs.«141552_j45389214384422_2_alg».proof.Proof.Gen.ReferenceIdeal.Run
import proofs.«141552_j45389214384422_2_alg».proof.Proof.Gen.ReferenceIdeal.Read
import proofs.«141552_j45389214384422_2_alg».proof.Proof.ArrayValue
import proofs.«141552_j45389214384422_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with the specification's three results. -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans ?_
    rw [(hagree c).1, (hagree c).2.1, (hagree c).2.2.2.1, (hagree c).2.2.2.2.1]
    exact Cert.ReferenceIdeal.RefValue.points_eq _ _ _ _ _
  · refine (h c).2.1.trans ?_
    rw [(hagree c).2.1, (hagree c).2.2.2.1, (hagree c).2.2.2.2.1, (hagree c).2.2.2.2.2.1, (hagree c).2.2.2.2.2.2.1,
      (hagree c).2.2.2.2.2.2.2.1, (hagree c).2.2.2.2.2.2.2.2]
    exact Cert.ReferenceIdeal.RefValue.feats_eq _ _ _ _ _ _ _ _ _ _
  · refine (h c).2.2.1.trans ?_
    rw [(hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
